-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S4x512x512 : Shape := ⟨3, ![4, 512, 512]⟩
abbrev S4x512x16 : Shape := ⟨3, ![4, 512, 16]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S8x8192x512 .f32) (main_arg1 : FVec F S4x512x512 .f32) (main_arg2 : IVec S4x512x16 32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  main_v8
-- ==== Kernel.lean ====
abbrev S8x8192x512 : Shape := ⟨3, ![8, 8192, 512]⟩
abbrev S4x512x512 : Shape := ⟨3, ![4, 512, 512]⟩
abbrev S4x512x16 : Shape := ⟨3, ![4, 512, 16]⟩
abbrev S_ : Shape := ⟨0, ![]⟩
abbrev S4x8192 : Shape := ⟨2, ![4, 8192]⟩
abbrev S1x512x16 : Shape := ⟨3, ![1, 512, 16]⟩
abbrev S512x16 : Shape := ⟨2, ![512, 16]⟩
abbrev S8192 : Shape := ⟨1, ![8192]⟩
abbrev S8192x1 : Shape := ⟨2, ![8192, 1]⟩
abbrev S8192x2 : Shape := ⟨2, ![8192, 2]⟩
abbrev S8192x4 : Shape := ⟨2, ![8192, 4]⟩
abbrev S65536x512 : Shape := ⟨2, ![65536, 512]⟩
abbrev S2048x512 : Shape := ⟨2, ![2048, 512]⟩
abbrev S2048x4 : Shape := ⟨2, ![2048, 4]⟩
abbrev S1x512x512 : Shape := ⟨3, ![1, 512, 512]⟩
abbrev S512x512 : Shape := ⟨2, ![512, 512]⟩
abbrev S2048x1 : Shape := ⟨2, ![2048, 1]⟩

abbrev nBuf : Space → Nat
  | .hbm => 92
  | .vmem => 21
  | .smem => 0
  | _ => 0

abbrev bufTy : (tb : Table) → Fin (tcTables nBuf tb) → BufTy
  | .hbm, ⟨0, _⟩ => ⟨S8x8192x512, .f32⟩
  | .hbm, ⟨1, _⟩ => ⟨S4x512x512, .f32⟩
  | .hbm, ⟨2, _⟩ => ⟨S4x512x16, .i32⟩
  | .hbm, ⟨3, _⟩ => ⟨S_, .f32⟩
  | .hbm, ⟨4, _⟩ => ⟨S4x8192, .f32⟩
  | .hbm, ⟨5, _⟩ => ⟨S1x512x16, .i32⟩
  | .hbm, ⟨6, _⟩ => ⟨S512x16, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x1, .i32⟩
  | .hbm, ⟨20, _⟩ => ⟨S8192x2, .i32⟩
  | .hbm, ⟨21, _⟩ => ⟨S_, .f32⟩
  | .hbm, ⟨22, _⟩ => ⟨S8192, .f32⟩
  | .hbm, ⟨23, _⟩ => ⟨S4x8192, .f32⟩
  | .hbm, ⟨24, _⟩ => ⟨S1x512x16, .i32⟩
  | .hbm, ⟨25, _⟩ => ⟨S512x16, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x1, .i32⟩
  | .hbm, ⟨39, _⟩ => ⟨S8192x2, .i32⟩
  | .hbm, ⟨40, _⟩ => ⟨S_, .f32⟩
  | .hbm, ⟨41, _⟩ => ⟨S8192, .f32⟩
  | .hbm, ⟨42, _⟩ => ⟨S4x8192, .f32⟩
  | .hbm, ⟨43, _⟩ => ⟨S1x512x16, .i32⟩
  | .hbm, ⟨44, _⟩ => ⟨S512x16, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S_, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192x1, .i32⟩
  | .hbm, ⟨58, _⟩ => ⟨S8192x2, .i32⟩
  | .hbm, ⟨59, _⟩ => ⟨S_, .f32⟩
  | .hbm, ⟨60, _⟩ => ⟨S8192, .f32⟩
  | .hbm, ⟨61, _⟩ => ⟨S4x8192, .f32⟩
  | .hbm, ⟨62, _⟩ => ⟨S1x512x16, .i32⟩
  | .hbm, ⟨63, _⟩ => ⟨S512x16, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x1, .i32⟩
  | .hbm, ⟨77, _⟩ => ⟨S8192x2, .i32⟩
  | .hbm, ⟨78, _⟩ => ⟨S_, .f32⟩
  | .hbm, ⟨79, _⟩ => ⟨S8192, .f32⟩
  | .hbm, ⟨80, _⟩ => ⟨S4x8192, .f32⟩
  | .hbm, ⟨81, _⟩ => ⟨S8192x4, .f32⟩
  | .hbm, ⟨82, _⟩ => ⟨S4x512x512, .bf16⟩
  | .hbm, ⟨83, _⟩ => ⟨S65536x512, .f32⟩
  | .hbm, ⟨84, _⟩ => ⟨S65536x512, .f32⟩
  | .hbm, ⟨85, _⟩ => ⟨S8x8192x512, .f32⟩
  | .hbm, ⟨86, _⟩ => ⟨S65536x512, .f32⟩
  | .hbm, ⟨87, _⟩ => ⟨S65536x512, .f32⟩
  | .hbm, ⟨88, _⟩ => ⟨S8x8192x512, .f32⟩
  | .hbm, ⟨89, _⟩ => ⟨S65536x512, .f32⟩
  | .hbm, ⟨90, _⟩ => ⟨S65536x512, .f32⟩
  | .hbm, ⟨91, _⟩ => ⟨S8x8192x512, .f32⟩
  | .local _ .vmem, ⟨0, _⟩ => ⟨S2048x512, .f32⟩
  | .local _ .vmem, ⟨1, _⟩ => ⟨S2048x512, .f32⟩
  | .local _ .vmem, ⟨2, _⟩ => ⟨S4x512x512, .bf16⟩
  | .local _ .vmem, ⟨3, _⟩ => ⟨S2048x4, .f32⟩
  | .local _ .vmem, ⟨4, _⟩ => ⟨S2048x4, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S4x512x512, .bf16⟩
  | .local _ .vmem, ⟨10, _⟩ => ⟨S2048x4, .f32⟩
  | .local _ .vmem, ⟨11, _⟩ => ⟨S2048x4, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S4x512x512, .bf16⟩
  | .local _ .vmem, ⟨17, _⟩ => ⟨S2048x4, .f32⟩
  | .local _ .vmem, ⟨18, _⟩ => ⟨S2048x4, .f32⟩
  | .local _ .vmem, ⟨19, _⟩ => ⟨S2048x512, .f32⟩
  | .local _ .vmem, ⟨20, _⟩ => ⟨S2048x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_c_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_14 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S4x8192 : S_.BroadcastsInDim S4x8192 (![] : Fin 0 → Fin S4x8192.rank)
  slices_S4x512x16_S1x512x16_0_0_0 : S4x512x16.Slices ![0, 0, 0] S1x512x16
  shapeCasts_S1x512x16_S512x16 : S1x512x16.ShapeCasts S512x16
  shapeCasts_S512x16_S8192 : S512x16.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  slices_S4x512x16_S1x512x16_1_0_0 : S4x512x16.Slices ![1, 0, 0] S1x512x16
  slices_S4x512x16_S1x512x16_2_0_0 : S4x512x16.Slices ![2, 0, 0] S1x512x16
  slices_S4x512x16_S1x512x16_3_0_0 : S4x512x16.Slices ![3, 0, 0] S1x512x16
  transposes_S4x8192_S8192x4_1_0 : S4x8192.Transposes [1, 0] S8192x4
  bitsLt_bf16_f32 : FTy.bits .bf16 < FTy.bits .f32
  shapeCasts_S8x8192x512_S65536x512 : S8x8192x512.ShapeCasts S65536x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  slices_S2048x4_o0_0_S2048x1 : S2048x4.Slices ![0, 0] S2048x1
  broadcasts_S2048x1_S2048x512 : S2048x1.Broadcasts S2048x512
  inb_S4x512x512_S1x512x512_1_0_0 : ∀ a, (![1, 0, 0] : Fin 3 → Nat) a + S1x512x512.size a ≤ S4x512x512.size a
  slices_S2048x4_o0_1_S2048x1 : S2048x4.Slices ![0, 1] S2048x1
  inb_S4x512x512_S1x512x512_2_0_0 : ∀ a, (![2, 0, 0] : Fin 3 → Nat) a + S1x512x512.size a ≤ S4x512x512.size a
  slices_S2048x4_o0_2_S2048x1 : S2048x4.Slices ![0, 2] S2048x1
  inb_S4x512x512_S1x512x512_3_0_0 : ∀ a, (![3, 0, 0] : Fin 3 → Nat) a + S1x512x512.size a ≤ S4x512x512.size a
  slices_S2048x4_o0_3_S2048x1 : S2048x4.Slices ![0, 3] S2048x1
  shapeCasts_S65536x512_S8x8192x512 : S65536x512.ShapeCasts S8x8192x512
  scatter_S4x8192_S8192x2_S8192_n_01_01_1_wf : ScatterDims.WF S4x8192 S8192x2 S8192 [] [0, 1] [0, 1] 1
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S8192x4.size a
  hwx0_2 : ∀ i : grid0.Coords, EltTy.bits .f32 = 32 ∨ (Rect.block (s := S8192x4) S2048x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S65536x512.size a
  hwx1_0 : ∀ i : grid1.Coords, EltTy.bits .f32 = 32 ∨ (Rect.block (s := S65536x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x512x512.size a ≤ S4x512x512.size a
  hwx1_1 : ∀ i : grid1.Coords, EltTy.bits .bf16 = 32 ∨ (Rect.block (s := S4x512x512) S4x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S8192x4.size a
  hwx1_2 : ∀ i : grid1.Coords, EltTy.bits .f32 = 32 ∨ (Rect.block (s := S8192x4) S2048x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S65536x512.size a
  hwx1_3 : ∀ i : grid1.Coords, EltTy.bits .f32 = 32 ∨ (Rect.block (s := S65536x512) S2048x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S65536x512.size a
  hwx2_0 : ∀ i : grid2.Coords, EltTy.bits .f32 = 32 ∨ (Rect.block (s := S65536x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x512x512.size a ≤ S4x512x512.size a
  hwx2_1 : ∀ i : grid2.Coords, EltTy.bits .bf16 = 32 ∨ (Rect.block (s := S4x512x512) S4x512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x4.size a ≤ S8192x4.size a
  hwx2_2 : ∀ i : grid2.Coords, EltTy.bits .f32 = 32 ∨ (Rect.block (s := S8192x4) S2048x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S65536x512.size a
  hwx2_3 : ∀ i : grid2.Coords, EltTy.bits .f32 = 32 ∨ (Rect.block (s := S65536x512) S2048x512.size (cc2_transform_3 i) (hinb2_3 i)).WholeWords (EltTy.packing .f32)

variable [Facts₀]

def scatter_S4x8192_S8192x2_S8192_n_01_01_1 : ScatterDims S4x8192 S8192x2 S8192 where
  updateWindowDims := []
  insertedWindowDims := [0, 1]
  scatterDimsToOperandDims := [0, 1]
  indexVectorDim := 1
  wf := scatter_S4x8192_S8192x2_S8192_n_01_01_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v63) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v62) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S2048x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v64) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v66) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S4x512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S4x512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2048x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v70) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x8192x512 : Shape := ⟨3, ![8, 8192, 512]⟩
abbrev S4x512x512 : Shape := ⟨3, ![4, 512, 512]⟩
abbrev S4x512x16 : Shape := ⟨3, ![4, 512, 16]⟩
abbrev S_ : Shape := ⟨0, ![]⟩
abbrev S1x512x16 : Shape := ⟨3, ![1, 512, 16]⟩
abbrev S512x16 : Shape := ⟨2, ![512, 16]⟩
abbrev S512x16x1 : Shape := ⟨3, ![512, 16, 1]⟩
abbrev S8x512x16x512 : Shape := ⟨4, ![8, 512, 16, 512]⟩
abbrev S1x512x512 : Shape := ⟨3, ![1, 512, 512]⟩
abbrev S512x512 : Shape := ⟨2, ![512, 512]⟩
abbrev S8192 : Shape := ⟨1, ![8192]⟩
abbrev S8192x1 : Shape := ⟨2, ![8192, 1]⟩

abbrev nBuf : Space → Nat
  | .hbm => 348
  | .vmem => 0
  | .smem => 0
  | _ => 0

abbrev hbmTy0_0 (i : Nat) : BufTy := match i % 128 with
  | 0 => ⟨S8x8192x512, .f32⟩
  | 1 => ⟨S4x512x512, .f32⟩
  | 2 => ⟨S4x512x16, .i32⟩
  | 3 => ⟨S_, .f32⟩
  | 4 => ⟨S8x8192x512, .f32⟩
  | 5 => ⟨S1x512x16, .i32⟩
  | 6 => ⟨S512x16, .i32⟩
  | 7 => ⟨S_, .i32⟩
  | 8 => ⟨S512x16, .i32⟩
  | 9 => ⟨S512x16, .i1⟩
  | 10 => ⟨S_, .i32⟩
  | 11 => ⟨S512x16, .i32⟩
  | 12 => ⟨S512x16, .i32⟩
  | 13 => ⟨S512x16, .i32⟩
  | 14 => ⟨S512x16x1, .i32⟩
  | 15 => ⟨S8x512x16x512, .f32⟩
  | 16 => ⟨S1x512x512, .f32⟩
  | 17 => ⟨S512x512, .f32⟩
  | 18 => ⟨S8x512x16x512, .f32⟩
  | 19 => ⟨S_, .f32⟩
  | 20 => ⟨S8x512x16x512, .f32⟩
  | 21 => ⟨S8x512x16x512, .f32⟩
  | 22 => ⟨S8192, .i32⟩
  | 23 => ⟨S8x8192x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8x8192x512, .f32⟩
  | 33 => ⟨S1x512x16, .i32⟩
  | 34 => ⟨S512x16, .i32⟩
  | 35 => ⟨S_, .i32⟩
  | 36 => ⟨S512x16, .i32⟩
  | 37 => ⟨S512x16, .i1⟩
  | 38 => ⟨S_, .i32⟩
  | 39 => ⟨S512x16, .i32⟩
  | 40 => ⟨S512x16, .i32⟩
  | 41 => ⟨S512x16, .i32⟩
  | 42 => ⟨S512x16x1, .i32⟩
  | 43 => ⟨S8x512x16x512, .f32⟩
  | 44 => ⟨S1x512x512, .f32⟩
  | 45 => ⟨S512x512, .f32⟩
  | 46 => ⟨S8x512x16x512, .f32⟩
  | 47 => ⟨S_, .f32⟩
  | 48 => ⟨S8x512x16x512, .f32⟩
  | 49 => ⟨S8x512x16x512, .f32⟩
  | 50 => ⟨S8192, .i32⟩
  | 51 => ⟨S8x8192x512, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8x8192x512, .f32⟩
  | 61 => ⟨S1x512x16, .i32⟩
  | 62 => ⟨S512x16, .i32⟩
  | 63 => ⟨S_, .i32⟩
  | 64 => ⟨S512x16, .i32⟩
  | 65 => ⟨S512x16, .i1⟩
  | 66 => ⟨S_, .i32⟩
  | 67 => ⟨S512x16, .i32⟩
  | 68 => ⟨S512x16, .i32⟩
  | 69 => ⟨S512x16, .i32⟩
  | 70 => ⟨S512x16x1, .i32⟩
  | 71 => ⟨S8x512x16x512, .f32⟩
  | 72 => ⟨S1x512x512, .f32⟩
  | 73 => ⟨S512x512, .f32⟩
  | 74 => ⟨S8x512x16x512, .f32⟩
  | 75 => ⟨S_, .f32⟩
  | 76 => ⟨S8x512x16x512, .f32⟩
  | 77 => ⟨S8x512x16x512, .f32⟩
  | 78 => ⟨S8192, .i32⟩
  | 79 => ⟨S8x8192x512, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8x8192x512, .f32⟩
  | 89 => ⟨S1x512x16, .i32⟩
  | 90 => ⟨S512x16, .i32⟩
  | 91 => ⟨S_, .i32⟩
  | 92 => ⟨S512x16, .i32⟩
  | 93 => ⟨S512x16, .i1⟩
  | 94 => ⟨S_, .i32⟩
  | 95 => ⟨S512x16, .i32⟩
  | 96 => ⟨S512x16, .i32⟩
  | 97 => ⟨S512x16, .i32⟩
  | 98 => ⟨S512x16x1, .i32⟩
  | 99 => ⟨S8x512x16x512, .f32⟩
  | 100 => ⟨S1x512x512, .f32⟩
  | 101 => ⟨S512x512, .f32⟩
  | 102 => ⟨S8x512x16x512, .f32⟩
  | 103 => ⟨S_, .f32⟩
  | 104 => ⟨S8x512x16x512, .f32⟩
  | 105 => ⟨S8x512x16x512, .f32⟩
  | 106 => ⟨S8192, .i32⟩
  | 107 => ⟨S8x8192x512, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8x8192x512, .f32⟩
  | 117 => ⟨S8x8192x512, .f32⟩
  | 118 => ⟨S_, .f32⟩
  | 119 => ⟨S8x8192x512, .f32⟩
  | 120 => ⟨S1x512x16, .i32⟩
  | 121 => ⟨S512x16, .i32⟩
  | 122 => ⟨S_, .i32⟩
  | 123 => ⟨S512x16, .i32⟩
  | 124 => ⟨S512x16, .i1⟩
  | 125 => ⟨S_, .i32⟩
  | 126 => ⟨S512x16, .i32⟩
  | 127 => ⟨S512x16, .i32⟩
  | _ => ⟨S8x8192x512, .f32⟩

abbrev hbmTy0_1 (i : Nat) : BufTy := match i % 128 with
  | 0 => ⟨S512x16, .i32⟩
  | 1 => ⟨S512x16x1, .i32⟩
  | 2 => ⟨S8x512x16x512, .f32⟩
  | 3 => ⟨S1x512x512, .f32⟩
  | 4 => ⟨S512x512, .f32⟩
  | 5 => ⟨S8x512x16x512, .f32⟩
  | 6 => ⟨S_, .f32⟩
  | 7 => ⟨S8x512x16x512, .f32⟩
  | 8 => ⟨S8x512x16x512, .f32⟩
  | 9 => ⟨S8192, .i32⟩
  | 10 => ⟨S8x8192x512, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8x8192x512, .f32⟩
  | 20 => ⟨S1x512x16, .i32⟩
  | 21 => ⟨S512x16, .i32⟩
  | 22 => ⟨S_, .i32⟩
  | 23 => ⟨S512x16, .i32⟩
  | 24 => ⟨S512x16, .i1⟩
  | 25 => ⟨S_, .i32⟩
  | 26 => ⟨S512x16, .i32⟩
  | 27 => ⟨S512x16, .i32⟩
  | 28 => ⟨S512x16, .i32⟩
  | 29 => ⟨S512x16x1, .i32⟩
  | 30 => ⟨S8x512x16x512, .f32⟩
  | 31 => ⟨S1x512x512, .f32⟩
  | 32 => ⟨S512x512, .f32⟩
  | 33 => ⟨S8x512x16x512, .f32⟩
  | 34 => ⟨S_, .f32⟩
  | 35 => ⟨S8x512x16x512, .f32⟩
  | 36 => ⟨S8x512x16x512, .f32⟩
  | 37 => ⟨S8192, .i32⟩
  | 38 => ⟨S8x8192x512, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8x8192x512, .f32⟩
  | 48 => ⟨S1x512x16, .i32⟩
  | 49 => ⟨S512x16, .i32⟩
  | 50 => ⟨S_, .i32⟩
  | 51 => ⟨S512x16, .i32⟩
  | 52 => ⟨S512x16, .i1⟩
  | 53 => ⟨S_, .i32⟩
  | 54 => ⟨S512x16, .i32⟩
  | 55 => ⟨S512x16, .i32⟩
  | 56 => ⟨S512x16, .i32⟩
  | 57 => ⟨S512x16x1, .i32⟩
  | 58 => ⟨S8x512x16x512, .f32⟩
  | 59 => ⟨S1x512x512, .f32⟩
  | 60 => ⟨S512x512, .f32⟩
  | 61 => ⟨S8x512x16x512, .f32⟩
  | 62 => ⟨S_, .f32⟩
  | 63 => ⟨S8x512x16x512, .f32⟩
  | 64 => ⟨S8x512x16x512, .f32⟩
  | 65 => ⟨S8192, .i32⟩
  | 66 => ⟨S8x8192x512, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8x8192x512, .f32⟩
  | 76 => ⟨S1x512x16, .i32⟩
  | 77 => ⟨S512x16, .i32⟩
  | 78 => ⟨S_, .i32⟩
  | 79 => ⟨S512x16, .i32⟩
  | 80 => ⟨S512x16, .i1⟩
  | 81 => ⟨S_, .i32⟩
  | 82 => ⟨S512x16, .i32⟩
  | 83 => ⟨S512x16, .i32⟩
  | 84 => ⟨S512x16, .i32⟩
  | 85 => ⟨S512x16x1, .i32⟩
  | 86 => ⟨S8x512x16x512, .f32⟩
  | 87 => ⟨S1x512x512, .f32⟩
  | 88 => ⟨S512x512, .f32⟩
  | 89 => ⟨S8x512x16x512, .f32⟩
  | 90 => ⟨S_, .f32⟩
  | 91 => ⟨S8x512x16x512, .f32⟩
  | 92 => ⟨S8x512x16x512, .f32⟩
  | 93 => ⟨S8192, .i32⟩
  | 94 => ⟨S8x8192x512, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8x8192x512, .f32⟩
  | 104 => ⟨S8x8192x512, .f32⟩
  | 105 => ⟨S_, .f32⟩
  | 106 => ⟨S8x8192x512, .f32⟩
  | 107 => ⟨S1x512x16, .i32⟩
  | 108 => ⟨S512x16, .i32⟩
  | 109 => ⟨S_, .i32⟩
  | 110 => ⟨S512x16, .i32⟩
  | 111 => ⟨S512x16, .i1⟩
  | 112 => ⟨S_, .i32⟩
  | 113 => ⟨S512x16, .i32⟩
  | 114 => ⟨S512x16, .i32⟩
  | 115 => ⟨S512x16, .i32⟩
  | 116 => ⟨S512x16x1, .i32⟩
  | 117 => ⟨S8x512x16x512, .f32⟩
  | 118 => ⟨S1x512x512, .f32⟩
  | 119 => ⟨S512x512, .f32⟩
  | 120 => ⟨S8x512x16x512, .f32⟩
  | 121 => ⟨S_, .f32⟩
  | 122 => ⟨S8x512x16x512, .f32⟩
  | 123 => ⟨S8x512x16x512, .f32⟩
  | 124 => ⟨S8192, .i32⟩
  | 125 => ⟨S8x8192x512, .f32⟩
  | 126 => ⟨S_, .i32⟩
  | 127 => ⟨S8192, .i32⟩
  | _ => ⟨S8x8192x512, .f32⟩

abbrev hbmTy0_2 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8x8192x512, .f32⟩
  | 7 => ⟨S1x512x16, .i32⟩
  | 8 => ⟨S512x16, .i32⟩
  | 9 => ⟨S_, .i32⟩
  | 10 => ⟨S512x16, .i32⟩
  | 11 => ⟨S512x16, .i1⟩
  | 12 => ⟨S_, .i32⟩
  | 13 => ⟨S512x16, .i32⟩
  | 14 => ⟨S512x16, .i32⟩
  | 15 => ⟨S512x16, .i32⟩
  | 16 => ⟨S512x16x1, .i32⟩
  | 17 => ⟨S8x512x16x512, .f32⟩
  | 18 => ⟨S1x512x512, .f32⟩
  | 19 => ⟨S512x512, .f32⟩
  | 20 => ⟨S8x512x16x512, .f32⟩
  | 21 => ⟨S_, .f32⟩
  | 22 => ⟨S8x512x16x512, .f32⟩
  | 23 => ⟨S8x512x16x512, .f32⟩
  | 24 => ⟨S8192, .i32⟩
  | 25 => ⟨S8x8192x512, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8x8192x512, .f32⟩
  | 35 => ⟨S1x512x16, .i32⟩
  | 36 => ⟨S512x16, .i32⟩
  | 37 => ⟨S_, .i32⟩
  | 38 => ⟨S512x16, .i32⟩
  | 39 => ⟨S512x16, .i1⟩
  | 40 => ⟨S_, .i32⟩
  | 41 => ⟨S512x16, .i32⟩
  | 42 => ⟨S512x16, .i32⟩
  | 43 => ⟨S512x16, .i32⟩
  | 44 => ⟨S512x16x1, .i32⟩
  | 45 => ⟨S8x512x16x512, .f32⟩
  | 46 => ⟨S1x512x512, .f32⟩
  | 47 => ⟨S512x512, .f32⟩
  | 48 => ⟨S8x512x16x512, .f32⟩
  | 49 => ⟨S_, .f32⟩
  | 50 => ⟨S8x512x16x512, .f32⟩
  | 51 => ⟨S8x512x16x512, .f32⟩
  | 52 => ⟨S8192, .i32⟩
  | 53 => ⟨S8x8192x512, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8x8192x512, .f32⟩
  | 63 => ⟨S1x512x16, .i32⟩
  | 64 => ⟨S512x16, .i32⟩
  | 65 => ⟨S_, .i32⟩
  | 66 => ⟨S512x16, .i32⟩
  | 67 => ⟨S512x16, .i1⟩
  | 68 => ⟨S_, .i32⟩
  | 69 => ⟨S512x16, .i32⟩
  | 70 => ⟨S512x16, .i32⟩
  | 71 => ⟨S512x16, .i32⟩
  | 72 => ⟨S512x16x1, .i32⟩
  | 73 => ⟨S8x512x16x512, .f32⟩
  | 74 => ⟨S1x512x512, .f32⟩
  | 75 => ⟨S512x512, .f32⟩
  | 76 => ⟨S8x512x16x512, .f32⟩
  | 77 => ⟨S_, .f32⟩
  | 78 => ⟨S8x512x16x512, .f32⟩
  | 79 => ⟨S8x512x16x512, .f32⟩
  | 80 => ⟨S8192, .i32⟩
  | 81 => ⟨S8x8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8x8192x512, .f32⟩
  | 91 => ⟨S8x8192x512, .f32⟩
  | _ => ⟨S8x8192x512, .f32⟩

abbrev hbmTy (i : Nat) : BufTy := match i / 128 with
  | 0 => hbmTy0_0 i
  | 1 => hbmTy0_1 i
  | 2 => hbmTy0_2 i
  | _ => ⟨S8x8192x512, .f32⟩

abbrev bufTy : (tb : Table) → Fin (tcTables nBuf tb) → BufTy
  | .hbm, ⟨i, _⟩ => hbmTy i
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_9 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_12 : Ref sig .tc := ⟨.hbm, 80, rfl⟩
abbrev main_v63 : Ref sig .tc := ⟨.hbm, 81, rfl⟩
abbrev main_v64 : Ref sig .tc := ⟨.hbm, 82, rfl⟩
abbrev main_c_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_14 : Ref sig .tc := ⟨.hbm, 91, rfl⟩
abbrev main_v72 : Ref sig .tc := ⟨.hbm, 92, rfl⟩
abbrev main_v73 : Ref sig .tc := ⟨.hbm, 93, rfl⟩
abbrev main_c_15 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_16 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_17 : Ref sig .tc := ⟨.hbm, 108, rfl⟩
abbrev main_v86 : Ref sig .tc := ⟨.hbm, 109, rfl⟩
abbrev main_v87 : Ref sig .tc := ⟨.hbm, 110, rfl⟩
abbrev main_c_18 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_19 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_c_20 : Ref sig .tc := ⟨.hbm, 122, rfl⟩
abbrev main_v97 : Ref sig .tc := ⟨.hbm, 123, rfl⟩
abbrev main_v98 : Ref sig .tc := ⟨.hbm, 124, rfl⟩
abbrev main_c_21 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_22 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_c_23 : Ref sig .tc := ⟨.hbm, 139, rfl⟩
abbrev main_v111 : Ref sig .tc := ⟨.hbm, 140, rfl⟩
abbrev main_v112 : Ref sig .tc := ⟨.hbm, 141, rfl⟩
abbrev main_c_24 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_c_25 : Ref sig .tc := ⟨.hbm, 150, rfl⟩
abbrev main_v120 : Ref sig .tc := ⟨.hbm, 151, rfl⟩
abbrev main_v121 : Ref sig .tc := ⟨.hbm, 152, rfl⟩
abbrev main_c_26 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_27 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_c_28 : Ref sig .tc := ⟨.hbm, 167, rfl⟩
abbrev main_v134 : Ref sig .tc := ⟨.hbm, 168, rfl⟩
abbrev main_v135 : Ref sig .tc := ⟨.hbm, 169, rfl⟩
abbrev main_c_29 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_c_30 : Ref sig .tc := ⟨.hbm, 178, rfl⟩
abbrev main_v143 : Ref sig .tc := ⟨.hbm, 179, rfl⟩
abbrev main_v144 : Ref sig .tc := ⟨.hbm, 180, rfl⟩
abbrev main_c_31 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_32 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_c_33 : Ref sig .tc := ⟨.hbm, 195, rfl⟩
abbrev main_v157 : Ref sig .tc := ⟨.hbm, 196, rfl⟩
abbrev main_v158 : Ref sig .tc := ⟨.hbm, 197, rfl⟩
abbrev main_c_34 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_c_35 : Ref sig .tc := ⟨.hbm, 206, rfl⟩
abbrev main_v166 : Ref sig .tc := ⟨.hbm, 207, rfl⟩
abbrev main_v167 : Ref sig .tc := ⟨.hbm, 208, rfl⟩
abbrev main_c_36 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_cst_37 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_c_38 : Ref sig .tc := ⟨.hbm, 223, rfl⟩
abbrev main_v180 : Ref sig .tc := ⟨.hbm, 224, rfl⟩
abbrev main_v181 : Ref sig .tc := ⟨.hbm, 225, rfl⟩
abbrev main_c_39 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_cst_40 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_c_41 : Ref sig .tc := ⟨.hbm, 237, rfl⟩
abbrev main_v191 : Ref sig .tc := ⟨.hbm, 238, rfl⟩
abbrev main_v192 : Ref sig .tc := ⟨.hbm, 239, rfl⟩
abbrev main_c_42 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_43 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_c_44 : Ref sig .tc := ⟨.hbm, 254, rfl⟩
abbrev main_v205 : Ref sig .tc := ⟨.hbm, 255, rfl⟩
abbrev main_v206 : Ref sig .tc := ⟨.hbm, 256, rfl⟩
abbrev main_c_45 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_c_46 : Ref sig .tc := ⟨.hbm, 265, rfl⟩
abbrev main_v214 : Ref sig .tc := ⟨.hbm, 266, rfl⟩
abbrev main_v215 : Ref sig .tc := ⟨.hbm, 267, rfl⟩
abbrev main_c_47 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_cst_48 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_c_49 : Ref sig .tc := ⟨.hbm, 282, rfl⟩
abbrev main_v228 : Ref sig .tc := ⟨.hbm, 283, rfl⟩
abbrev main_v229 : Ref sig .tc := ⟨.hbm, 284, rfl⟩
abbrev main_c_50 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_c_51 : Ref sig .tc := ⟨.hbm, 293, rfl⟩
abbrev main_v237 : Ref sig .tc := ⟨.hbm, 294, rfl⟩
abbrev main_v238 : Ref sig .tc := ⟨.hbm, 295, rfl⟩
abbrev main_c_52 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_cst_53 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_c_54 : Ref sig .tc := ⟨.hbm, 310, rfl⟩
abbrev main_v251 : Ref sig .tc := ⟨.hbm, 311, rfl⟩
abbrev main_v252 : Ref sig .tc := ⟨.hbm, 312, rfl⟩
abbrev main_c_55 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_c_56 : Ref sig .tc := ⟨.hbm, 321, rfl⟩
abbrev main_v260 : Ref sig .tc := ⟨.hbm, 322, rfl⟩
abbrev main_v261 : Ref sig .tc := ⟨.hbm, 323, rfl⟩
abbrev main_c_57 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_cst_58 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_c_59 : Ref sig .tc := ⟨.hbm, 338, rfl⟩
abbrev main_v274 : Ref sig .tc := ⟨.hbm, 339, rfl⟩
abbrev main_v275 : Ref sig .tc := ⟨.hbm, 340, rfl⟩
abbrev main_c_60 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩

abbrev nD : Nat := 1
abbrev τ : Topo := Topo.v7x

variable {F : FTy → Type} [FloatOps F]

class Facts₀ : Prop where
  bcast_S_S8x8192x512 : S_.BroadcastsInDim S8x8192x512 (![] : Fin 0 → Fin S8x8192x512.rank)
  slices_S4x512x16_S1x512x16_0_0_0 : S4x512x16.Slices ![0, 0, 0] S1x512x16
  shapeCasts_S1x512x16_S512x16 : S1x512x16.ShapeCasts S512x16
  bcast_S_S512x16 : S_.BroadcastsInDim S512x16 (![] : Fin 0 → Fin S512x16.rank)
  bcast_S512x16_S512x16x1_0_1 : S512x16.BroadcastsInDim S512x16x1 (![0, 1] : Fin 2 → Fin S512x16x1.rank)
  slices_S4x512x512_S1x512x512_0_0_0 : S4x512x512.Slices ![0, 0, 0] S1x512x512
  shapeCasts_S1x512x512_S512x512 : S1x512x512.ShapeCasts S512x512
  bcast_S_S8x512x16x512 : S_.BroadcastsInDim S8x512x16x512 (![] : Fin 0 → Fin S8x512x16x512.rank)
  shapeCasts_S512x16_S8192 : S512x16.ShapeCasts S8192
  shapeCasts_S8x512x16x512_S8x8192x512 : S8x512x16x512.ShapeCasts S8x8192x512
  bcast_S_S8192 : S_.BroadcastsInDim S8192 (![] : Fin 0 → Fin S8192.rank)
  bcast_S8192_S8192x1_0 : S8192.BroadcastsInDim S8192x1 (![0] : Fin 1 → Fin S8192x1.rank)
  slices_S4x512x16_S1x512x16_1_0_0 : S4x512x16.Slices ![1, 0, 0] S1x512x16
  slices_S4x512x512_S1x512x512_1_0_0 : S4x512x512.Slices ![1, 0, 0] S1x512x512
  slices_S4x512x16_S1x512x16_2_0_0 : S4x512x16.Slices ![2, 0, 0] S1x512x16
  slices_S4x512x512_S1x512x512_2_0_0 : S4x512x512.Slices ![2, 0, 0] S1x512x512
  slices_S4x512x16_S1x512x16_3_0_0 : S4x512x16.Slices ![3, 0, 0] S1x512x16
  slices_S4x512x512_S1x512x512_3_0_0 : S4x512x512.Slices ![3, 0, 0] S1x512x512
  gather_S8x8192x512_S512x16x1_S8x512x16x512_03_1_n_n_1_2_81512_wf : GatherDims.WF S8x8192x512 S512x16x1 S8x512x16x512 [0, 3] [1] [] [1] [] 2 ![8, 1, 512]
  dot_S8x512x16x512_S512x512_S8x512x16x512_3_0_012_1_n_n_wf : DotDims.WF S8x512x16x512 S512x512 S8x512x16x512 [3] [0] [0, 1, 2] [1] [] []
  scatter_S8x8192x512_S8192x1_S8x8192x512_02_1_1_1_wf : ScatterDims.WF S8x8192x512 S8192x1 S8x8192x512 [0, 2] [1] [1] 1

variable [Facts₀]

def gather_S8x8192x512_S512x16x1_S8x512x16x512_03_1_n_n_1_2_81512 : GatherDims S8x8192x512 S512x16x1 S8x512x16x512 where
  offsetDims := [0, 3]
  collapsedSliceDims := [1]
  operandBatchingDims := []
  startIndicesBatchingDims := []
  startIndexMap := [1]
  indexVectorDim := 2
  sliceSizes := ![8, 1, 512]
  wf := gather_S8x8192x512_S512x16x1_S8x512x16x512_03_1_n_n_1_2_81512_wf
def dot_S8x512x16x512_S512x512_S8x512x16x512_3_0_012_1_n_n : DotDims S8x512x16x512 S512x512 S8x512x16x512 where
  lhsContracting := [3]
  rhsContracting := [0]
  lhsNonContracting := [0, 1, 2]
  rhsNonContracting := [1]
  lhsBatch := []
  rhsBatch := []
  wf := dot_S8x512x16x512_S512x512_S8x512x16x512_3_0_012_1_n_n_wf
def scatter_S8x8192x512_S8192x1_S8x8192x512_02_1_1_1 : ScatterDims S8x8192x512 S8192x1 S8x8192x512 where
  updateWindowDims := [0, 2]
  insertedWindowDims := [1]
  scatterDimsToOperandDims := [1]
  indexVectorDim := 1
  wf := scatter_S8x8192x512_S8192x1_S8x8192x512_02_1_1_1_wf

class Facts : Prop extends Facts₀ where

variable [Facts]
-- ==== Proof.KRun.lean ====
/-
  The idealized kernel program's run with its RESULT named. The program is three launches of one fused kernel among
  stretches of host operations; its generated frame certificate folds the buffer contents through those seven segments
  (the valuations W0 … W7 of the generated frame module). Read at the result buffer instead of only at the arguments,
  the same run says: every weakly fair execution ends with the result array at what the fold leaves there, and the
  three arguments as launched.
-/
import proofs.«173885_j49976239456835_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result array at the last boundary's
    contents and the arguments as launched. -/
theorem run_named : θ_run defs (onTc (τ := τ) (main (F := F))) ⟨m, fun _ => 0, ρ⟩ (fun r => ∀ c : Dev nD,
      r.2.mem ((c.tc : Thread nD τ).loc main_v71) = W7 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v71 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.RunV

end
-- ==== Proof.KStep.lean ====
/-
  The fused kernel's arithmetic at one element of its block, at exact (extended-real) arithmetic.

  The three launches run the same body with three scale factors s. For a block x0 of 2048 rows of activations, the four
  weight matrices w₀ … w₃ (each a [1,512,512] slab) and the block x2 of per-row counts [2048,4], the body stores, at row
  y and column e,
      x0[y,e] + s · ((((0 + x2[y,0] · ∑_d x0[y,d] w₀[d,e]) + x2[y,1] · ∑_d x0[y,d] w₁[d,e]) + …) + x2[y,3] · ∑_d x0[y,d] w₃[d,e]):
  a change of float format is the identity, a matrix product into the zero accumulator is the plain sum over the
  contracted axis, a column slice broadcast along the row reads the count of that row.
-/
import proofs.«173885_j49976239456835_2_alg».proof.Proof.Gen.KernelIdeal.Skeleton
import Idealize.ShloMosaic.PureOps.Ideal.Laws
import Idealize.ShloMosaic.Lib.ValueIdx
import Idealize.ShloMosaic.Lib.Pipeline.Value
import proofs.«173885_j49976239456835_2_alg».proof.Proof.Gen.KernelIdeal.Frame

set_option synthInstance.maxSize 4096

noncomputable section

open scoped BigOperators

namespace Cert.KernelIdeal.Step

open Cert.KernelIdeal Cert.KernelIdeal.Gen Idealize.ShloMosaic Idealize.ShloMosaic.ValueIdx Idealize.SL.Sem

section Generic
variable {F : FTy → Type} [FloatOps F]

/-- The body's stored value with the scale factor's bit pattern a parameter. -/
noncomputable def pay (s : BitVec 32) (v0 : Vec F S2048x512 .f32) (v3 : Vec F S2048x4 .f32) (v6 : Vec F S1x512x512 .bf16) (v13 : Vec F S1x512x512 .bf16) (v20 : Vec F S1x512x512 .bf16) (v27 : Vec F S1x512x512 .bf16) : FVec F S2048x512 .f32 :=
  have v1 : FVec F S2048x512 .f32 := shapeCast S2048x512 v0 shapeCasts_S2048x512_S2048x512
  have v2 : FVec F S2048x512 .bf16 := truncf .bf16 v1 bitsLt_bf16_f32
  have v4 : FVec F S2048x4 .f32 := shapeCast S2048x4 v3 shapeCasts_S2048x4_S2048x4
  have cst : F .f32 := Scalar.ofBits .f32 0x00000000#32
  have v5 : FVec F S2048x512 .f32 := broadcast S2048x512 cst
  have v7 : FVec F S512x512 .bf16 := shapeCast S512x512 v6 shapeCasts_S1x512x512_S512x512
  have cst_6 : FVec F S2048x512 .f32 := constant S2048x512 .f32 0x00000000#32
  have v8 : FVec F S2048x512 .f32 := matmul dot_S2048x512_S512x512_S2048x512_1_0_0_1_n_n none v2 v7 cst_6
  have v9 : FVec F S2048x1 .f32 := extractStridedSlice S2048x1 ![0, 0] v4 slices_S2048x4_o0_0_S2048x1
  have v10 : FVec F S2048x512 .f32 := broadcastTo S2048x512 v9 broadcasts_S2048x1_S2048x512
  have v11 : FVec F S2048x512 .f32 := mulf v10 v8
  have v12 : FVec F S2048x512 .f32 := addf v5 v11
  have v14 : FVec F S512x512 .bf16 := shapeCast S512x512 v13 shapeCasts_S1x512x512_S512x512
  have cst_9 : FVec F S2048x512 .f32 := constant S2048x512 .f32 0x00000000#32
  have v15 : FVec F S2048x512 .f32 := matmul dot_S2048x512_S512x512_S2048x512_1_0_0_1_n_n none v2 v14 cst_9
  have v16 : FVec F S2048x1 .f32 := extractStridedSlice S2048x1 ![0, 1] v4 slices_S2048x4_o0_1_S2048x1
  have v17 : FVec F S2048x512 .f32 := broadcastTo S2048x512 v16 broadcasts_S2048x1_S2048x512
  have v18 : FVec F S2048x512 .f32 := mulf v17 v15
  have v19 : FVec F S2048x512 .f32 := addf v12 v18
  have v21 : FVec F S512x512 .bf16 := shapeCast S512x512 v20 shapeCasts_S1x512x512_S512x512
  have cst_12 : FVec F S2048x512 .f32 := constant S2048x512 .f32 0x00000000#32
  have v22 : FVec F S2048x512 .f32 := matmul dot_S2048x512_S512x512_S2048x512_1_0_0_1_n_n none v2 v21 cst_12
  have v23 : FVec F S2048x1 .f32 := extractStridedSlice S2048x1 ![0, 2] v4 slices_S2048x4_o0_2_S2048x1
  have v24 : FVec F S2048x512 .f32 := broadcastTo S2048x512 v23 broadcasts_S2048x1_S2048x512
  have v25 : FVec F S2048x512 .f32 := mulf v24 v22
  have v26 : FVec F S2048x512 .f32 := addf v19 v25
  have v28 : FVec F S512x512 .bf16 := shapeCast S512x512 v27 shapeCasts_S1x512x512_S512x512
  have cst_15 : FVec F S2048x512 .f32 := constant S2048x512 .f32 0x00000000#32
  have v29 : FVec F S2048x512 .f32 := matmul dot_S2048x512_S512x512_S2048x512_1_0_0_1_n_n none v2 v28 cst_15
  have v30 : FVec F S2048x1 .f32 := extractStridedSlice S2048x1 ![0, 3] v4 slices_S2048x4_o0_3_S2048x1
  have v31 : FVec F S2048x512 .f32 := broadcastTo S2048x512 v30 broadcasts_S2048x1_S2048x512
  have v32 : FVec F S2048x512 .f32 := mulf v31 v29
  have v33 : FVec F S2048x512 .f32 := addf v26 v32
  have cst_16 : F .f32 := Scalar.ofBits .f32 s
  have v34 : FVec F S2048x512 .f32 := broadcast S2048x512 cst_16
  have v35 : FVec F S2048x512 .f32 := mulf v34 v33
  have v36 : FVec F S2048x512 .f32 := addf v1 v35
  v36

theorem k0_pay1_eq : k0_pay1 (F := F) = pay 0x3F800000#32 := rfl
theorem k1_pay1_eq : k1_pay1 (F := F) = pay 0x3F000000#32 := rfl
theorem k2_pay1_eq : k2_pay1 (F := F) = pay 0x3EAAAAAB#32 := rfl

end Generic

abbrev D := dot_S2048x512_S512x512_S2048x512_1_0_0_1_n_n

theorem lhs_0 (j : S2048x512.Idx) (k : D.contr.Idx) : (D.lhsIdx j k 0 : ℕ) = j 0 := by
  simp [DotDims.lhsIdx, D, dot_S2048x512_S512x512_S2048x512_1_0_0_1_n_n]; rfl
theorem lhs_1 (j : S2048x512.Idx) (k : D.contr.Idx) : (D.lhsIdx j k 1 : ℕ) = k ⟨0, by decide⟩ := by
  simp [DotDims.lhsIdx, D, dot_S2048x512_S512x512_S2048x512_1_0_0_1_n_n]; rfl
theorem rhs_0 (j : S2048x512.Idx) (k : D.contr.Idx) : (D.rhsIdx j k 0 : ℕ) = k ⟨0, by decide⟩ := by
  simp [DotDims.rhsIdx, D, dot_S2048x512_S512x512_S2048x512_1_0_0_1_n_n]; rfl
theorem rhs_1 (j : S2048x512.Idx) (k : D.contr.Idx) : (D.rhsIdx j k 1 : ℕ) = j 1 := by
  simp [DotDims.rhsIdx, D, dot_S2048x512_S512x512_S2048x512_1_0_0_1_n_n]; rfl

/-- One projection of a row: the product of the block with one weight slab, at (y, e), is the sum over the contracted
    coordinate d of x0[y,d] · w[0,d,e]. -/
theorem proj_apply (x0 : FVec Ideal S2048x512 .f32) (w : FVec Ideal S1x512x512 .bf16) (y : Fin 2048) (e : Fin 512) :
    matmul (F := Ideal) dot_S2048x512_S512x512_S2048x512_1_0_0_1_n_n none
        (truncf .bf16 (shapeCast S2048x512 x0 shapeCasts_S2048x512_S2048x512) bitsLt_bf16_f32)
        (shapeCast S512x512 w shapeCasts_S1x512x512_S512x512) (constant S2048x512 .f32 0x00000000#32) (ix2 y e)
      = ∑ d : Fin 512, x0 (ix2 y d) * w (ix3 0 d e) := by
  refine (Ideal.matmul_constant_zero_apply D none _ _ (ix2 y e)).trans ?_
  rw [← Equiv.sum_comp (contrEquiv1 D 512 rfl rfl).symm]
  refine Finset.sum_congr rfl fun d _ => ?_
  have hd := contrEquiv1_symm_val D 512 rfl rfl d
  congr 1
  · rw [shapeCast_self]
    show x0 _ = x0 _
    refine congrArg x0 ?_
    funext a; refine Fin.ext ?_
    match a with
    | ⟨0, _⟩ => exact lhs_0 _ _
    | ⟨1, _⟩ => exact (lhs_1 _ _).trans hd
  · have hR : D.rhsIdx (ix2 y e) ((contrEquiv1 D 512 rfl rfl).symm d) = ix2 d e := by
      funext a; refine Fin.ext ?_
      match a with
      | ⟨0, _⟩ => exact (rhs_0 _ _).trans hd
      | ⟨1, _⟩ => exact rhs_1 _ _
    rw [hR]
    refine shapeCast_apply w shapeCasts_S1x512x512_S512x512 (ix2 d e) (ix3 0 d e) ?_
    rw [Shape.rowMajor_val_three, Shape.rowMajor_val_two]
    show ((0 : ℕ) * 512 + d.val) * 512 + e.val = d.val * 512 + e.val
    omega

/-- The count of a row for projection p: column p of the count block, broadcast along the row. -/
theorem col_apply (x2 : FVec Ideal S2048x4 .f32) (p : ℕ) (hp : p < 4) (h : S2048x4.Slices ![0, p] S2048x1) (y : Fin 2048) (e : Fin 512) :
    broadcastTo S2048x512 (extractStridedSlice S2048x1 ![0, p] (shapeCast S2048x4 x2 shapeCasts_S2048x4_S2048x4) h)
        broadcasts_S2048x1_S2048x512 (ix2 y e) = x2 (ix2 y ⟨p, hp⟩) := by
  rw [shapeCast_self]
  refine (broadcastTo_apply _ broadcasts_S2048x1_S2048x512 (ix2 y e) (ix2 y 0) ?_).trans ?_
  · intro a
    match a with
    | ⟨0, _⟩ => rfl
    | ⟨1, _⟩ => rfl
  · refine extractStridedSlice_apply ![0, p] x2 h (ix2 y 0) (ix2 y ⟨p, hp⟩) ?_
    intro a
    match a with
    | ⟨0, _⟩ => simp
    | ⟨1, _⟩ => simp

/-- THE BODY AT (y, e). -/
theorem pay_apply (s : BitVec 32) (x0 : FVec Ideal S2048x512 .f32) (x2 : FVec Ideal S2048x4 .f32)
    (w0 w1 w2 w3 : FVec Ideal S1x512x512 .bf16) (y : Fin 2048) (e : Fin 512) :
    pay (F := Ideal) s x0 x2 w0 w1 w2 w3 (ix2 y e)
      = x0 (ix2 y e) + Ideal.ofBits .f32 s * ((((Ideal.ofBits .f32 0x00000000#32
            + x2 (ix2 y 0) * ∑ d : Fin 512, x0 (ix2 y d) * w0 (ix3 0 d e))
            + x2 (ix2 y 1) * ∑ d : Fin 512, x0 (ix2 y d) * w1 (ix3 0 d e))
            + x2 (ix2 y 2) * ∑ d : Fin 512, x0 (ix2 y d) * w2 (ix3 0 d e))
            + x2 (ix2 y 3) * ∑ d : Fin 512, x0 (ix2 y d) * w3 (ix3 0 d e)) := by
  unfold pay
  simp only [addf_apply, mulf_apply, broadcast_apply]
  rw [proj_apply, proj_apply, proj_apply, proj_apply, col_apply x2 0 (by decide), col_apply x2 1 (by decide),
    col_apply x2 2 (by decide), col_apply x2 3 (by decide), shapeCast_self]
  rfl

/-! ## One launch as a function of whole arrays -/

/-- The row of the count table a row of the flattened activations reads: its particle index. -/
def rowOf (r : Fin 65536) : Fin 8192 := ⟨r.val % 8192, Nat.mod_lt _ (by decide)⟩

/-- One launch's result at row r, column e, from the flattened activations v [65536,512], the weights wb [4,512,512]
    and the transposed count table ct [8192,4]. -/
def kAt (s : BitVec 32) (v : FVec Ideal S65536x512 .f32) (wb : FVec Ideal S4x512x512 .bf16) (ct : FVec Ideal S8192x4 .f32)
    (r : Fin 65536) (e : Fin 512) : EReal :=
  v (ix2 r e) + Ideal.ofBits .f32 s * ((((Ideal.ofBits .f32 0x00000000#32
      + ct (ix2 (rowOf r) 0) * ∑ d : Fin 512, v (ix2 r d) * wb (ix3 0 d e))
      + ct (ix2 (rowOf r) 1) * ∑ d : Fin 512, v (ix2 r d) * wb (ix3 1 d e))
      + ct (ix2 (rowOf r) 2) * ∑ d : Fin 512, v (ix2 r d) * wb (ix3 2 d e))
      + ct (ix2 (rowOf r) 3) * ∑ d : Fin 512, v (ix2 r d) * wb (ix3 3 d e))

/-- The whole result array of one launch. -/
def KIter (s : BitVec 32) (v : FVec Ideal S65536x512 .f32) (wb : FVec Ideal S4x512x512 .bf16) (ct : FVec Ideal S8192x4 .f32) :
    FVec Ideal S65536x512 .f32 := fun i => kAt s v wb ct (i 0) (i 1)

theorem KIter_apply (s : BitVec 32) (v : FVec Ideal S65536x512 .f32) (wb : FVec Ideal S4x512x512 .bf16) (ct : FVec Ideal S8192x4 .f32)
    (r : Fin 65536) (e : Fin 512) : KIter s v wb ct (ix2 r e) = kAt s v wb ct r e := rfl

theorem hz2 : (![0, 0] : Fin 2 → Nat) = fun _ => 0 := funext fun a => by fin_cases a <;> rfl

/-- A weight slab loaded from the resident block: slab k of the weights. -/
theorem ld_slab (x1 : Vec Ideal S4x512x512 .bf16) (k : ℕ) (hk : k < 4)
    (inb : ∀ a, (![k, 0, 0] : Fin 3 → ℕ) a + S1x512x512.size a ≤ S4x512x512.size a) (d e : Fin 512) :
    View.ld x1 (Rect.unit (s := S4x512x512) ![k, 0, 0] S1x512x512.size inb) (ix3 0 d e) = x1 (ix3 ⟨k, hk⟩ d e) := by
  show x1 _ = x1 _
  refine congrArg x1 ?_
  funext a; refine Fin.ext ?_
  match a with
  | ⟨0, _⟩ => show k + 1 * 0 = k; omega
  | ⟨1, _⟩ => show 0 + 1 * d.val = d.val; omega
  | ⟨2, _⟩ => show 0 + 1 * e.val = e.val; omega

/-- THE BODY AT GRID POINT T, in whole-array terms: when the activation block is rows 2048 T … of v, the weight block
    is all of wb, and the count block is rows 2048 (T mod 4) … of ct, the stored block is the launch's result on rows
    2048 T … . -/
theorem flushed_core (s : BitVec 32) (x0 : FVec Ideal S2048x512 .f32) (x1 : FVec Ideal S4x512x512 .bf16) (x2 : FVec Ideal S2048x4 .f32)
    (v : FVec Ideal S65536x512 .f32) (wb : FVec Ideal S4x512x512 .bf16) (ct : FVec Ideal S8192x4 .f32) (T : ℕ) (hT : T < 32)
    (h0 : ∀ (y : Fin 2048) (d : Fin 512), x0 (ix2 y d) = v (ix2 ⟨T * 2048 + y.val, by omega⟩ d))
    (h1 : x1 = wb)
    (h2 : ∀ (y : Fin 2048) (p : Fin 4), x2 (ix2 y p) = ct (ix2 ⟨(T % 4) * 2048 + y.val, by omega⟩ p))
    (y : Fin 2048) (e : Fin 512) :
    pay (F := Ideal) s (View.ld x0 r0_0) (View.ld x2 r0_1) (View.ld x1 r0_2) (View.ld x1 r0_3) (View.ld x1 r0_4) (View.ld x1 r0_5) (ix2 y e)
      = kAt s v wb ct ⟨T * 2048 + y.val, by omega⟩ e := by
  rw [pay_apply, View.ld_unit_zero (S := S2048x512) hz2, View.ld_unit_zero (S := S2048x4) hz2]
  have hrow : rowOf ⟨T * 2048 + y.val, by omega⟩ = ⟨(T % 4) * 2048 + y.val, by omega⟩ := by
    refine Fin.ext ?_
    show (T * 2048 + y.val) % 8192 = (T % 4) * 2048 + y.val
    have := y.isLt
    omega
  unfold kAt
  rw [hrow]
  simp only [h0, h2]
  subst h1
  have e2 : ∀ d : Fin 512, View.ld (Val := Elt Ideal) (e' := .bf16) x1 r0_2 (ix3 0 d e) = x1 (ix3 0 d e) :=
    fun d => ld_slab x1 0 (by decide) _ d e
  have e3 : ∀ d : Fin 512, View.ld (Val := Elt Ideal) (e' := .bf16) x1 r0_3 (ix3 0 d e) = x1 (ix3 1 d e) :=
    fun d => ld_slab x1 1 (by decide) _ d e
  have e4 : ∀ d : Fin 512, View.ld (Val := Elt Ideal) (e' := .bf16) x1 r0_4 (ix3 0 d e) = x1 (ix3 2 d e) :=
    fun d => ld_slab x1 2 (by decide) _ d e
  have e5 : ∀ d : Fin 512, View.ld (Val := Elt Ideal) (e' := .bf16) x1 r0_5 (ix3 0 d e) = x1 (ix3 3 d e) :=
    fun d => ld_slab x1 3 (by decide) _ d e
  simp only [e2, e3, e4, e5]

end Cert.KernelIdeal.Step

end
-- ==== Proof.ScatterReads.lean ====
/-
  Two accumulating scatters read at one operand element, at exact (extended-real) arithmetic.

  An update element lands on the operand element whose coordinate on every axis is the window's start there
  (the index word for that axis, read as a signed integer and not clamped; zero on an axis no word names) plus
  the update's window coordinate (zero on an inserted axis). Hence:
  * the row scatter of the reference (updates `[8, 8192, 512]`, one index word per update row): update
    `(b, j, e)` lands on `(b, n, e)` exactly when word `j` equals `n`; so the result at `(b, n, e)` is the
    operand there plus the sum over the rows `j` whose word is `n` of update `(b, j, e)`;
  * the element scatter of the kernel (updates `[8192]`, two index words per update): update `j` lands on
    `(p, n)` exactly when its two words are `p` and `n`; so the result at `(p, n)` is the operand there plus
    the sum of the updates `j` whose words are `(p, n)`.
  A word outside the operand's range lands nowhere and contributes nothing: no coordinate equals it.
-/
import proofs.«173885_j49976239456835_2_alg».proof.Proof.Gen.KernelIdeal
import proofs.«173885_j49976239456835_2_alg».proof.Proof.Gen.ReferenceIdeal
import Idealize.ShloMosaic.PureOps.Ideal
import Idealize.ShloMosaic.Lib.ValueIdx

noncomputable section

open scoped BigOperators
open Idealize.ShloMosaic Idealize.ShloMosaic.ValueIdx

namespace Cert.ScatterReads

/-- An update lands on operand index `i` exactly when, on every axis, the window's start plus the
    window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hb
      have hfi := Option.some.inj h
      intro a
      have ha := congrArg (fun f => ((f a).val : ℤ)) hfi
      simp only at ha
      rw [← ha]
      exact (Int.toNat_of_nonneg (hb a).1).symm
    · exact absurd h (by simp)
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's row scatter: update `(b, j, e)` goes to row `idx[j, 0]` of slab `b`, column `e`. -/
private abbrev d3 := Cert.ReferenceIdeal.scatter_S8x8192x512_S8192x1_S8x8192x512_02_1_1_1

theorem d3_start0 (idx : IVec Cert.ReferenceIdeal.S8192x1 32) (b' : Fin 8) (j : Fin 8192) (e' : Fin 512) :
    d3.start (ix3 b' j e') idx (0 : Fin 3) = 0 := by
  unfold ScatterDims.start
  rw [dif_neg (show ¬ (0 : Fin 3) ∈ d3.scatterDimsToOperandDims from by decide)]

theorem d3_start2 (idx : IVec Cert.ReferenceIdeal.S8192x1 32) (b' : Fin 8) (j : Fin 8192) (e' : Fin 512) :
    d3.start (ix3 b' j e') idx (2 : Fin 3) = 0 := by
  unfold ScatterDims.start
  rw [dif_neg (show ¬ (2 : Fin 3) ∈ d3.scatterDimsToOperandDims from by decide)]

theorem d3_start1 (idx : IVec Cert.ReferenceIdeal.S8192x1 32) (b' : Fin 8) (j : Fin 8192) (e' : Fin 512) :
    d3.start (ix3 b' j e') idx (1 : Fin 3) = (idx (ix2 j 0)).toInt := by
  unfold ScatterDims.start
  rw [dif_pos (show (1 : Fin 3) ∈ d3.scatterDimsToOperandDims from List.mem_singleton.mpr rfl)]
  have hsi : d3.siIdx (ix3 b' j e') ⟨List.idxOf (1 : Fin 3) d3.scatterDimsToOperandDims,
      List.idxOf_lt_length_iff.2 (List.mem_singleton.mpr rfl)⟩ = ix2 j 0 := by
    funext a; refine Fin.ext ?_
    match a with
    | ⟨0, _⟩ => rfl
    | ⟨1, _⟩ => rfl
  rw [hsi]

theorem d3_window0 (b' : Fin 8) (j : Fin 8192) (e' : Fin 512) :
    d3.window (ix3 b' j e') (0 : Fin 3) = b'.val := by
  unfold ScatterDims.window
  rw [dif_pos (show (0 : Fin 3) ∈ d3.sKept from by decide)]
  rfl

theorem d3_window1 (b' : Fin 8) (j : Fin 8192) (e' : Fin 512) :
    d3.window (ix3 b' j e') (1 : Fin 3) = 0 := by
  unfold ScatterDims.window
  rw [dif_neg (show ¬ (1 : Fin 3) ∈ d3.sKept from by decide)]

theorem d3_window2 (b' : Fin 8) (j : Fin 8192) (e' : Fin 512) :
    d3.window (ix3 b' j e') (2 : Fin 3) = e'.val := by
  unfold ScatterDims.window
  rw [dif_pos (show (2 : Fin 3) ∈ d3.sKept from by decide)]
  rfl

/-- Update `(b', j, e')` lands on operand element `(b, n, e)` exactly when it is in slab `b`, column `e`, and
    its index word, read signed and not clamped, is `n`. -/
theorem d3_lands (idx : IVec Cert.ReferenceIdeal.S8192x1 32) (b' b : Fin 8) (j n : Fin 8192) (e' e : Fin 512) :
    d3.resultIdx? (ix3 b' j e') idx = some (ix3 b n e)
      ↔ b' = b ∧ (idx (ix2 j 0)).toInt = (n.val : ℤ) ∧ e' = e := by
  rw [resultIdx?_eq_some_iff]
  have e0 : d3.start (ix3 b' j e') idx (0 : Fin 3) + (d3.window (ix3 b' j e') (0 : Fin 3) : ℤ) = (b'.val : ℤ) := by
    rw [d3_start0, d3_window0, zero_add]
  have e1 : d3.start (ix3 b' j e') idx (1 : Fin 3) + (d3.window (ix3 b' j e') (1 : Fin 3) : ℤ)
      = (idx (ix2 j 0)).toInt := by
    rw [d3_start1, d3_window1, Nat.cast_zero, add_zero]
  have e2 : d3.start (ix3 b' j e') idx (2 : Fin 3) + (d3.window (ix3 b' j e') (2 : Fin 3) : ℤ) = (e'.val : ℤ) := by
    rw [d3_start2, d3_window2, zero_add]
  constructor
  · intro h
    have h0 : (b'.val : ℤ) = (b.val : ℤ) := e0.symm.trans (h (0 : Fin 3))
    have h1 : (idx (ix2 j 0)).toInt = (n.val : ℤ) := e1.symm.trans (h (1 : Fin 3))
    have h2 : (e'.val : ℤ) = (e.val : ℤ) := e2.symm.trans (h (2 : Fin 3))
    exact ⟨Fin.ext (by exact_mod_cast h0), h1, Fin.ext (by exact_mod_cast h2)⟩
  · rintro ⟨rfl, hn, rfl⟩ a
    match a with
    | ⟨0, _⟩ => exact e0
    | ⟨1, _⟩ => exact e1.trans hn
    | ⟨2, _⟩ => exact e2

theorem scatter3_apply (x : FVec Ideal Cert.ReferenceIdeal.S8x8192x512 .f32) (idx : IVec Cert.ReferenceIdeal.S8192x1 32)
    (upd : FVec Ideal Cert.ReferenceIdeal.S8x8192x512 .f32) (b : Fin 8) (n : Fin 8192) (e : Fin 512) :
    Host.scatterAdd (F := Ideal) Cert.ReferenceIdeal.scatter_S8x8192x512_S8192x1_S8x8192x512_02_1_1_1 x idx upd (ix3 b n e)
      = x (ix3 b n e) + ∑ j : Fin 8192, if (idx (ix2 j 0)).toInt = (n.val : ℤ) then upd (ix3 b j e) else 0 := by
  show x (ix3 b n e) + ∑ j ∈ Finset.univ.filter (fun j => d3.resultIdx? j idx = some (ix3 b n e)), upd j = _
  refine congrArg (fun t => x (ix3 b n e) + t) ?_
  rw [Finset.sum_filter, sum_idx3]
  rw [Finset.sum_eq_single b]
  · refine Finset.sum_congr rfl fun j _ => ?_
    rw [Finset.sum_eq_single e]
    · by_cases hn : (idx (ix2 j 0)).toInt = (n.val : ℤ)
      · rw [if_pos ((d3_lands idx b b j n e e).mpr ⟨rfl, hn, rfl⟩), if_pos hn]
      · rw [if_neg (fun h => hn ((d3_lands idx b b j n e e).mp h).2.1), if_neg hn]
    · intro e' _ he
      exact if_neg (fun h => he ((d3_lands idx b b j n e' e).mp h).2.2)
    · intro h; exact absurd (Finset.mem_univ _) h
  · intro b' _ hb
    refine Finset.sum_eq_zero fun j _ => Finset.sum_eq_zero fun e' _ => ?_
    exact if_neg (fun h => hb ((d3_lands idx b' b j n e' e).mp h).1)
  · intro h; exact absurd (Finset.mem_univ _) h

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-- The kernel's element scatter: update `j` goes to element `(idx[j, 0], idx[j, 1])`. -/
private abbrev d2 := Cert.KernelIdeal.scatter_S4x8192_S8192x2_S8192_n_01_01_1

theorem d2_start0 (idx : IVec Cert.KernelIdeal.S8192x2 32) (j : Fin 8192) :
    d2.start (ix1 j) idx (0 : Fin 2) = (idx (ix2 j 0)).toInt := by
  unfold ScatterDims.start
  rw [dif_pos (show (0 : Fin 2) ∈ d2.scatterDimsToOperandDims from by decide)]
  have hsi : d2.siIdx (ix1 j) ⟨List.idxOf (0 : Fin 2) d2.scatterDimsToOperandDims,
      List.idxOf_lt_length_iff.2 (by decide)⟩ = ix2 j 0 := by
    funext a; refine Fin.ext ?_
    match a with
    | ⟨0, _⟩ => rfl
    | ⟨1, _⟩ => rfl
  rw [hsi]

theorem d2_start1 (idx : IVec Cert.KernelIdeal.S8192x2 32) (j : Fin 8192) :
    d2.start (ix1 j) idx (1 : Fin 2) = (idx (ix2 j 1)).toInt := by
  unfold ScatterDims.start
  rw [dif_pos (show (1 : Fin 2) ∈ d2.scatterDimsToOperandDims from by decide)]
  have hsi : d2.siIdx (ix1 j) ⟨List.idxOf (1 : Fin 2) d2.scatterDimsToOperandDims,
      List.idxOf_lt_length_iff.2 (by decide)⟩ = ix2 j 1 := by
    funext a; refine Fin.ext ?_
    match a with
    | ⟨0, _⟩ => rfl
    | ⟨1, _⟩ => rfl
  rw [hsi]

theorem d2_window (j : Fin 8192) (a : Fin 2) : d2.window (ix1 j) a = 0 := by
  unfold ScatterDims.window
  rw [dif_neg (show ¬ a ∈ d2.sKept from by revert a; decide)]

/-- Update `j` lands on operand element `(p, n)` exactly when its two index words, read signed and not
    clamped, are `p` and `n`. -/
theorem d2_lands (idx : IVec Cert.KernelIdeal.S8192x2 32) (j : Fin 8192) (p : Fin 4) (n : Fin 8192) :
    d2.resultIdx? (ix1 j) idx = some (ix2 p n)
      ↔ (idx (ix2 j 0)).toInt = (p.val : ℤ) ∧ (idx (ix2 j 1)).toInt = (n.val : ℤ) := by
  rw [resultIdx?_eq_some_iff]
  have e0 : d2.start (ix1 j) idx (0 : Fin 2) + (d2.window (ix1 j) (0 : Fin 2) : ℤ) = (idx (ix2 j 0)).toInt := by
    rw [d2_start0, d2_window, Nat.cast_zero, add_zero]
  have e1 : d2.start (ix1 j) idx (1 : Fin 2) + (d2.window (ix1 j) (1 : Fin 2) : ℤ) = (idx (ix2 j 1)).toInt := by
    rw [d2_start1, d2_window, Nat.cast_zero, add_zero]
  constructor
  · intro h
    exact ⟨e0.symm.trans (h (0 : Fin 2)), e1.symm.trans (h (1 : Fin 2))⟩
  · rintro ⟨hp, hn⟩ a
    match a with
    | ⟨0, _⟩ => exact e0.trans hp
    | ⟨1, _⟩ => exact e1.trans hn

theorem scatter2_apply (x : FVec Ideal Cert.KernelIdeal.S4x8192 .f32) (idx : IVec Cert.KernelIdeal.S8192x2 32)
    (upd : FVec Ideal Cert.KernelIdeal.S8192 .f32) (p : Fin 4) (n : Fin 8192) :
    Host.scatterAdd (F := Ideal) Cert.KernelIdeal.scatter_S4x8192_S8192x2_S8192_n_01_01_1 x idx upd (ix2 p n)
      = x (ix2 p n) + ∑ j : Fin 8192,
          if (idx (ix2 j 0)).toInt = (p.val : ℤ) ∧ (idx (ix2 j 1)).toInt = (n.val : ℤ) then upd (ix1 j) else 0 := by
  show x (ix2 p n) + ∑ j ∈ Finset.univ.filter (fun j => d2.resultIdx? j idx = some (ix2 p n)), upd j = _
  refine congrArg (fun t => x (ix2 p n) + t) ?_
  rw [Finset.sum_filter, sum_idx1]
  refine Finset.sum_congr rfl fun j _ => ?_
  by_cases h : (idx (ix2 j 0)).toInt = (p.val : ℤ) ∧ (idx (ix2 j 1)).toInt = (n.val : ℤ)
  · rw [if_pos ((d2_lands idx j p n).mpr h), if_pos h]
  · rw [if_neg (fun h' => h ((d2_lands idx j p n).mp h')), if_neg h]

end Cert.ScatterReads

end
-- ==== Proof.CountsRead.lean ====
/-
  The kernel's table of counts read at one entry, at exact (extended-real) arithmetic.

  The table `[4, 8192]` starts at zero and receives four accumulating scatters of ones; the `p`-th scatter's
  index pairs are `(p, nₚ[j])` for `j < 8192`: a column of the constant `p` beside the column of the index
  words `nₚ`. Update `j` of the `p`-th scatter lands on `(q, n)` exactly when `q = p` and word `nₚ[j]`, read
  signed, is `n`; so on row `p` the `p`-th scatter adds the number of `j` with `nₚ[j] = n` (a sum of ones)
  and the other three add nothing (their first word is another constant), and `0 + x = x`, `x + 0 = x`.
  The transposed table `[8192, 4]` at `(n, p)` is the table at `(p, n)`.
-/
import proofs.«173885_j49976239456835_2_alg».proof.Proof.Gen.KernelIdeal
import proofs.«173885_j49976239456835_2_alg».proof.Proof.ScatterReads
import Idealize.ShloMosaic.Lib.ValueIdx
import Idealize.ShloMosaic.Lib.Pipeline.Value

noncomputable section

open scoped BigOperators
open Cert.KernelIdeal Cert.KernelIdeal.Gen Idealize.ShloMosaic Idealize.ShloMosaic.ValueIdx

namespace Cert.CountsRead

/-- the index pairs of projection p -/
def cntIdx (p : BitVec 32) (nidx : IVec S8192 32) : IVec S8192x2 32 :=
  concatenate S8192x2 1 [⟨S8192x1, broadcastInDim S8192x1 ![0] bcast_S8192_S8192x1_0 (id (broadcastInDim S8192 ![] bcast_S_S8192 (constantI S_ 32 p)))⟩, ⟨S8192x1, broadcastInDim S8192x1 ![0] bcast_S8192_S8192x1_0 nidx⟩] concatenates_S8192x1_S8192x1_S8192x2_d1
/-- the ones -/
def ones : FVec Ideal S8192 .f32 := broadcastInDim S8192 ![] bcast_S_S8192 (constant S_ .f32 0x3F800000#32)
/-- the table of counts -/
def counts (n0 n1 n2 n3 : IVec S8192 32) : FVec Ideal S4x8192 .f32 :=
  Host.scatterAdd scatter_S4x8192_S8192x2_S8192_n_01_01_1 (Host.scatterAdd scatter_S4x8192_S8192x2_S8192_n_01_01_1 (Host.scatterAdd scatter_S4x8192_S8192x2_S8192_n_01_01_1 (Host.scatterAdd scatter_S4x8192_S8192x2_S8192_n_01_01_1 (broadcastInDim S4x8192 ![] bcast_S_S4x8192 (constant S_ .f32 0x00000000#32)) (cntIdx 0#32 n0) ones) (cntIdx 1#32 n1) ones) (cntIdx 2#32 n2) ones) (cntIdx 3#32 n3) ones
/-- the transposed table -/
def countsT (n0 n1 n2 n3 : IVec S8192 32) : FVec Ideal S8192x4 .f32 := transpose S8192x4 [1, 0] (counts n0 n1 n2 n3) transposes_S4x8192_S8192x4_1_0

/-- The first word of pair `j` is the constant. -/
theorem cntIdx_apply0 (p : BitVec 32) (nidx : IVec S8192 32) (j : Fin 8192) : cntIdx p nidx (ix2 j 0) = p := by
  unfold cntIdx
  refine (concatenate_pair_apply_left (t := S8192x2) (s₁ := S8192x1) (s₂ := S8192x1) 1 _ _ concatenates_S8192x1_S8192x1_S8192x2_d1 (ix2 j 0) rfl
    (ix2 j 0) ?_).trans ?_
  · intro b
    match b with
    | ⟨0, _⟩ => rfl
    | ⟨1, _⟩ => rfl
  · rfl

/-- The second word of pair `j` is index word `j`. -/
theorem cntIdx_apply1 (p : BitVec 32) (nidx : IVec S8192 32) (j : Fin 8192) :
    cntIdx p nidx (ix2 j 1) = nidx (ix1 j) := by
  unfold cntIdx
  refine (concatenate_pair_apply_right (t := S8192x2) (s₁ := S8192x1) (s₂ := S8192x1) 1 _ _ concatenates_S8192x1_S8192x1_S8192x2_d1 (ix2 j 1) rfl rfl
    (ix2 j 0) ?_ ?_).trans ?_
  · intro b hb
    match b with
    | ⟨0, _⟩ => rfl
    | ⟨1, _⟩ => exact absurd rfl hb
  · rfl
  · refine broadcastInDim_apply _ _ _ _ (ix1 j) ?_
    intro a
    match a with
    | ⟨0, _⟩ => rfl

/-- Every update is one. -/
theorem ones_apply (i : S8192.Idx) : ones i = (1 : EReal) := by
  show Ideal.ofBits .f32 0x3F800000#32 = 1
  simp [Ideal.ofBits, Ideal.ieee, -EReal.coe_mul]
  norm_num

/-- The table starts at zero. -/
theorem zero_apply (i : S4x8192.Idx) :
    (broadcastInDim S4x8192 ![] bcast_S_S4x8192 (constant (F := Ideal) S_ .f32 0x00000000#32)) i = (0 : EReal) := by
  show Ideal.ofBits .f32 0x00000000#32 = 0
  simp [Ideal.ofBits, Ideal.ieee]

/-- The transposed table at `(n, p)` is the table at `(p, n)`. -/
theorem countsT_eq (n0 n1 n2 n3 : IVec S8192 32) (n : Fin 8192) (p : Fin 4) :
    countsT n0 n1 n2 n3 (ix2 n p) = counts n0 n1 n2 n3 (ix2 p n) := by
  unfold countsT
  refine transpose_apply _ _ _ _ (ix2 p n) ?_
  intro b
  match b with
  | ⟨0, _⟩ => rfl
  | ⟨1, _⟩ => rfl

/-- One accumulating scatter of ones with first word the constant `pc`, read at `(p, n)`. -/
theorem step_apply (x : FVec Ideal S4x8192 .f32) (pc : BitVec 32) (nidx : IVec S8192 32) (p : Fin 4) (n : Fin 8192) :
    Host.scatterAdd (F := Ideal) scatter_S4x8192_S8192x2_S8192_n_01_01_1 x (cntIdx pc nidx) ones (ix2 p n)
      = x (ix2 p n) + ∑ j : Fin 8192,
          if pc.toInt = (p.val : ℤ) ∧ (nidx (ix1 j)).toInt = (n.val : ℤ) then (1 : EReal) else 0 := by
  refine (Cert.ScatterReads.scatter2_apply x (cntIdx pc nidx) ones p n).trans ?_
  refine congrArg (fun t => x (ix2 p n) + t) ?_
  refine Finset.sum_congr rfl fun j _ => ?_
  rw [cntIdx_apply0, cntIdx_apply1, ones_apply]

/-- The scatter whose constant is `p` adds to row `p` the number of its words equal to `n`. -/
theorem step_hit (x : FVec Ideal S4x8192 .f32) (pc : BitVec 32) (nidx : IVec S8192 32) (p : Fin 4) (n : Fin 8192)
    (hp : pc.toInt = (p.val : ℤ)) :
    Host.scatterAdd (F := Ideal) scatter_S4x8192_S8192x2_S8192_n_01_01_1 x (cntIdx pc nidx) ones (ix2 p n)
      = x (ix2 p n) + ∑ j : Fin 8192, if (nidx (ix1 j)).toInt = (n.val : ℤ) then (1 : EReal) else 0 := by
  refine (step_apply x pc nidx p n).trans ?_
  refine congrArg (fun t => x (ix2 p n) + t) ?_
  refine Finset.sum_congr rfl fun j _ => ?_
  by_cases h : (nidx (ix1 j)).toInt = (n.val : ℤ)
  · rw [if_pos ⟨hp, h⟩, if_pos h]
  · rw [if_neg (fun h' => h h'.2), if_neg h]

/-- A scatter whose constant is another row adds nothing to row `p`. -/
theorem step_miss (x : FVec Ideal S4x8192 .f32) (pc : BitVec 32) (nidx : IVec S8192 32) (p : Fin 4) (n : Fin 8192)
    (hp : pc.toInt ≠ (p.val : ℤ)) :
    Host.scatterAdd (F := Ideal) scatter_S4x8192_S8192x2_S8192_n_01_01_1 x (cntIdx pc nidx) ones (ix2 p n)
      = x (ix2 p n) := by
  refine (step_apply x pc nidx p n).trans ?_
  rw [Finset.sum_eq_zero (fun j _ => if_neg (fun h' => hp h'.1)), add_zero]

private theorem add_eq_of_eq_zero {a b : EReal} (h : a = 0) : a + b = b := by rw [h, zero_add]

theorem countsT_apply0 (n0 n1 n2 n3 : IVec S8192 32) (n : Fin 8192) :
    countsT n0 n1 n2 n3 (ix2 n 0) = ∑ j : Fin 8192, if (n0 (ix1 j)).toInt = (n.val : ℤ) then (1 : EReal) else 0 := by
  refine (countsT_eq n0 n1 n2 n3 n 0).trans ?_
  unfold counts
  refine (step_miss _ 3#32 n3 0 n (by decide)).trans ?_
  refine (step_miss _ 2#32 n2 0 n (by decide)).trans ?_
  refine (step_miss _ 1#32 n1 0 n (by decide)).trans ?_
  refine (step_hit _ 0#32 n0 0 n (by decide)).trans ?_
  exact add_eq_of_eq_zero (zero_apply _)

theorem countsT_apply1 (n0 n1 n2 n3 : IVec S8192 32) (n : Fin 8192) :
    countsT n0 n1 n2 n3 (ix2 n 1) = ∑ j : Fin 8192, if (n1 (ix1 j)).toInt = (n.val : ℤ) then (1 : EReal) else 0 := by
  refine (countsT_eq n0 n1 n2 n3 n 1).trans ?_
  unfold counts
  refine (step_miss _ 3#32 n3 1 n (by decide)).trans ?_
  refine (step_miss _ 2#32 n2 1 n (by decide)).trans ?_
  refine (step_hit _ 1#32 n1 1 n (by decide)).trans ?_
  refine add_eq_of_eq_zero ?_
  refine (step_miss _ 0#32 n0 1 n (by decide)).trans ?_
  exact zero_apply _

theorem countsT_apply2 (n0 n1 n2 n3 : IVec S8192 32) (n : Fin 8192) :
    countsT n0 n1 n2 n3 (ix2 n 2) = ∑ j : Fin 8192, if (n2 (ix1 j)).toInt = (n.val : ℤ) then (1 : EReal) else 0 := by
  refine (countsT_eq n0 n1 n2 n3 n 2).trans ?_
  unfold counts
  refine (step_miss _ 3#32 n3 2 n (by decide)).trans ?_
  refine (step_hit _ 2#32 n2 2 n (by decide)).trans ?_
  refine add_eq_of_eq_zero ?_
  refine (step_miss _ 1#32 n1 2 n (by decide)).trans ?_
  refine (step_miss _ 0#32 n0 2 n (by decide)).trans ?_
  exact zero_apply _

theorem countsT_apply3 (n0 n1 n2 n3 : IVec S8192 32) (n : Fin 8192) :
    countsT n0 n1 n2 n3 (ix2 n 3) = ∑ j : Fin 8192, if (n3 (ix1 j)).toInt = (n.val : ℤ) then (1 : EReal) else 0 := by
  refine (countsT_eq n0 n1 n2 n3 n 3).trans ?_
  unfold counts
  refine (step_hit _ 3#32 n3 3 n (by decide)).trans ?_
  refine add_eq_of_eq_zero ?_
  refine (step_miss _ 2#32 n2 3 n (by decide)).trans ?_
  refine (step_miss _ 1#32 n1 3 n (by decide)).trans ?_
  refine (step_miss _ 0#32 n0 3 n (by decide)).trans ?_
  exact zero_apply _

end Cert.CountsRead

end
-- ==== Proof.KArgs.lean ====
/-
  The three arrays every launch of the fused kernel reads besides the activations, and the two reshapes around the
  launches, as functions of the program's arguments: the weights rounded to the matrix unit's input format (the
  identity on extended reals), the transposed table of counts built from the index words (a negative word first offset
  by the table's height), the activations [8, 8192, 512] flattened to [65536, 512] and back.
-/
import proofs.«173885_j49976239456835_2_alg».proof.Proof.KStep
import proofs.«173885_j49976239456835_2_alg».proof.Proof.CountsRead
import Idealize.ShloMosaic.Lib.Pipeline.Value

noncomputable section

namespace Cert.KernelIdeal.KValue

open Cert.KernelIdeal Cert.KernelIdeal.Gen Cert.KernelIdeal.Step
open Idealize.ShloMosaic Idealize.ShloMosaic.ValueIdx

/-- [8, 8192, 512] flattened to [65536, 512] … -/
abbrev R2 (x : FVec Ideal S8x8192x512 .f32) : FVec Ideal S65536x512 .f32 :=
  shapeCast S65536x512 x shapeCasts_S8x8192x512_S65536x512
/-- … and back. -/
abbrev R3 (x : FVec Ideal S65536x512 .f32) : FVec Ideal S8x8192x512 .f32 :=
  shapeCast S8x8192x512 x shapeCasts_S65536x512_S8x8192x512

theorem R2_R3 (z : FVec Ideal S65536x512 .f32) : R2 (R3 z) = z := shapeCast_shapeCast _ _ _

/-- Projection k's index words, flattened to [8192]. -/
def kflat (k : ℕ) (hk : S4x512x16.Slices ![k, 0, 0] S1x512x16) (g : IVec S4x512x16 32) : IVec S8192 32 :=
  shapeCast _ (shapeCast _ (extractStridedSlice S1x512x16 ![k, 0, 0] g hk) shapeCasts_S1x512x16_S512x16) shapeCasts_S512x16_S8192
/-- A negative word is offset by the table's height. -/
def knorm (x : IVec S8192 32) : IVec S8192 32 :=
  select (cmpi .slt x (broadcastInDim S8192 ![] bcast_S_S8192 (constantI S_ 32 0#32))) (addi x (broadcastInDim S8192 ![] bcast_S_S8192 (constantI S_ 32 8192#32))) x

/-- The transposed table of counts the program builds from the index words. -/
def ctOf (g : IVec S4x512x16 32) : FVec Ideal S8192x4 .f32 :=
  Cert.CountsRead.countsT (knorm (kflat 0 slices_S4x512x16_S1x512x16_0_0_0 g)) (knorm (kflat 1 slices_S4x512x16_S1x512x16_1_0_0 g))
    (knorm (kflat 2 slices_S4x512x16_S1x512x16_2_0_0 g)) (knorm (kflat 3 slices_S4x512x16_S1x512x16_3_0_0 g))

/-- The weights as the launches read them. -/
def wbOf (W : FVec Ideal S4x512x512 .f32) : FVec Ideal S4x512x512 .bf16 := truncf .bf16 W bitsLt_bf16_f32

end Cert.KernelIdeal.KValue

end
-- ==== Proof.UpdateRead.lean ====
/-
  One projection's update array of the reference program, read at an index, in exact (extended-real) arithmetic.

  The array is  reshape( c * ( gather(u, idx) · W ) ) :
  the gather takes, for every batch b, row clamp(idx[g, t, 0]) of u[b] (the index read as a signed integer and clamped
  into [0, 8191]); the product contracts the gathered rows' last axis with the matrix's first; the scalar c is broadcast
  and multiplied in elementwise; and the reshape [8, 512, 16, 512] -> [8, 8192, 512] puts element (b, g, t, e) at
  (b, 16 g + t, e). So at (b, 16 g + t, e) the array is  c * sum over d of u[b, clamp(idx[g, t, 0]), d] * W[d, e].
-/
import proofs.«173885_j49976239456835_2_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.UpdateRead

open Cert.ReferenceIdeal Idealize.ShloMosaic Idealize.ShloMosaic.ValueIdx

open Facts₀

/-- the gather's dimension record -/
private abbrev G := gather_S8x8192x512_S512x16x1_S8x512x16x512_03_1_n_n_1_2_81512

/-- the product's dimension record -/
private abbrev D := dot_S8x512x16x512_S512x512_S8x512x16x512_3_0_012_1_n_n

/-- The gather read at (b, g, t, d): row clamp(idx[g, t, 0]) of batch b, column d. On operand axis 0 the start is 0 and
    the offset coordinate is b; on axis 1 (collapsed, the one the start index addresses) the start is the index read
    signed and clamped into [0, 8192 - 1] and the offset is 0; on axis 2 the start is 0 and the offset coordinate is d.
    No axis is a batching axis. -/
theorem gather_apply (u : FVec Ideal S8x8192x512 .f32) (idx : IVec S512x16x1 32) (b : Fin 8) (g : Fin 512) (t : Fin 16) (d : Fin 512) :
    Host.gather gather_S8x8192x512_S512x16x1_S8x512x16x512_03_1_n_n_1_2_81512 u idx (ix4 b g t d)
      = u (ix3 b ⟨min (idx (ix3 g t 0)).toInt.toNat 8191, by omega⟩ d) := by
  unfold Host.gather
  refine congrArg u ?_
  funext a
  refine Fin.ext ?_
  match a with
  | ⟨0, _⟩ =>
    show GatherDims.start G (ix4 b g t d) idx (0 : Fin 3) + GatherDims.batchCoord G (ix4 b g t d) (0 : Fin 3) + GatherDims.offCoord G (ix4 b g t d) (0 : Fin 3) = b.val
    have hs : GatherDims.start G (ix4 b g t d) idx (0 : Fin 3) = 0 := rfl
    have hb : GatherDims.batchCoord G (ix4 b g t d) (0 : Fin 3) = 0 := rfl
    have ho : GatherDims.offCoord G (ix4 b g t d) (0 : Fin 3) = b.val := rfl
    rw [hs, hb, ho]; omega
  | ⟨1, _⟩ =>
    show GatherDims.start G (ix4 b g t d) idx (1 : Fin 3) + GatherDims.batchCoord G (ix4 b g t d) (1 : Fin 3) + GatherDims.offCoord G (ix4 b g t d) (1 : Fin 3) = min (idx (ix3 g t 0)).toInt.toNat 8191
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ G.startIndexMap from List.mem_singleton.mpr rfl)]
    have hsi : G.siIdx (ix4 b g t d) ⟨List.idxOf (1 : Fin 3) G.startIndexMap,
        List.idxOf_lt_length_iff.2 (List.mem_singleton.mpr rfl)⟩ = ix3 g t 0 := by
      funext c; refine Fin.ext ?_
      match c with
      | ⟨0, _⟩ => rfl
      | ⟨1, _⟩ => rfl
      | ⟨2, _⟩ => rfl
    rw [hsi]
    rfl
  | ⟨2, _⟩ =>
    show GatherDims.start G (ix4 b g t d) idx (2 : Fin 3) + GatherDims.batchCoord G (ix4 b g t d) (2 : Fin 3) + GatherDims.offCoord G (ix4 b g t d) (2 : Fin 3) = d.val
    have hs : GatherDims.start G (ix4 b g t d) idx (2 : Fin 3) = 0 := rfl
    have hb : GatherDims.batchCoord G (ix4 b g t d) (2 : Fin 3) = 0 := rfl
    have ho : GatherDims.offCoord G (ix4 b g t d) (2 : Fin 3) = d.val := rfl
    rw [hs, hb, ho]; omega

/-- The product read at (b, g, t, e): the sum over the one contracted coordinate d (the left operand's last axis, the
    matrix's first) of l[b, g, t, d] * r[d, e]. The contraction's index set is re-indexed by its one coordinate. -/
theorem dot_apply (l : FVec Ideal S8x512x16x512 .f32) (r : FVec Ideal S512x512 .f32) (b : Fin 8) (g : Fin 512) (t : Fin 16) (e : Fin 512) :
    Host.dotGeneral (F := Ideal) dot_S8x512x16x512_S512x512_S8x512x16x512_3_0_012_1_n_n none l r (ix4 b g t e) = ∑ d : Fin 512, l (ix4 b g t d) * r (ix2 d e) := by
  refine (Ideal.dotGeneral_apply D none .single l r (ix4 b g t e)).trans ?_
  refine (Equiv.sum_comp (contrEquiv1 D 512 rfl rfl).symm _).symm.trans ?_
  refine Finset.sum_congr rfl fun k _ => ?_
  have hl : D.lhsIdx (ix4 b g t e) ((contrEquiv1 D 512 rfl rfl).symm k) = ix4 b g t k := by
    funext a; refine Fin.ext ?_
    match a with
    | ⟨0, _⟩ => rfl
    | ⟨1, _⟩ => rfl
    | ⟨2, _⟩ => rfl
    | ⟨3, _⟩ => exact (D.lhsIdx_val_of_single rfl _ _).trans (contrEquiv1_symm_val D 512 rfl rfl k)
  have hr : D.rhsIdx (ix4 b g t e) ((contrEquiv1 D 512 rfl rfl).symm k) = ix2 k e := by
    funext a; refine Fin.ext ?_
    match a with
    | ⟨0, _⟩ => exact (D.rhsIdx_val_of_single rfl _ _).trans (contrEquiv1_symm_val D 512 rfl rfl k)
    | ⟨1, _⟩ => rfl
  rw [hl, hr]

/-- The reshape [8, 512, 16, 512] -> [8, 8192, 512] read at (b, 16 g + t, e) is the operand at (b, g, t, e): the two
    indices have the same row-major position, ((512 b + g) 16 + t) 512 + e = (8192 b + (16 g + t)) 512 + e. -/
theorem cast43_apply (x : FVec Ideal S8x512x16x512 .f32) (b : Fin 8) (g : Fin 512) (t : Fin 16) (e : Fin 512) :
    shapeCast S8x8192x512 x shapeCasts_S8x512x16x512_S8x8192x512 (ix3 b ⟨g.val * 16 + t.val, by omega⟩ e) = x (ix4 b g t e) := by
  refine shapeCast_apply x _ _ (ix4 b g t e) ?_
  rw [Shape.rowMajor_val_four, Shape.rowMajor_val_three]
  show ((b.val * 512 + g.val) * 16 + t.val) * 512 + e.val = (b.val * 8192 + (g.val * 16 + t.val)) * 512 + e.val
  omega

/-- one projection's update array -/
def upd (s : BitVec 32) (u : FVec Ideal S8x8192x512 .f32) (idx3 : IVec S512x16x1 32) (Wp : FVec Ideal S512x512 .f32) : FVec Ideal S8x8192x512 .f32 :=
  shapeCast _ (mulf (broadcastInDim S8x512x16x512 ![] bcast_S_S8x512x16x512 (constant S_ .f32 s)) (Host.dotGeneral dot_S8x512x16x512_S512x512_S8x512x16x512_3_0_012_1_n_n none (Host.gather gather_S8x8192x512_S512x16x1_S8x512x16x512_03_1_n_n_1_2_81512 u idx3) Wp)) shapeCasts_S8x512x16x512_S8x8192x512

/-- One projection's update array read at (b, 16 g + t, e): the scale (the splat constant's value) times the sum over d
    of u[b, clamp(idx3[g, t, 0]), d] * Wp[d, e]. The reshape, the elementwise product with the broadcast scalar, the
    contraction and the gather are read at the index in turn. -/
theorem upd_apply (s : BitVec 32) (u : FVec Ideal S8x8192x512 .f32) (idx3 : IVec S512x16x1 32) (Wp : FVec Ideal S512x512 .f32) (b : Fin 8) (g : Fin 512) (t : Fin 16) (e : Fin 512) :
    upd s u idx3 Wp (ix3 b ⟨g.val * 16 + t.val, by omega⟩ e)
      = Ideal.ofBits .f32 s * ∑ d : Fin 512, u (ix3 b ⟨min (idx3 (ix3 g t 0)).toInt.toNat 8191, by omega⟩ d) * Wp (ix2 d e) := by
  unfold upd
  refine (cast43_apply _ b g t e).trans ?_
  refine (mulf_apply _ _ _).trans ?_
  have hc : broadcastInDim S8x512x16x512 ![] bcast_S_S8x512x16x512 (constant (F := Ideal) S_ .f32 s) (ix4 b g t e) = Ideal.ofBits .f32 s := rfl
  refine (congrArg (· * _) hc).trans ?_
  refine congrArg (Ideal.ofBits .f32 s * ·) ?_
  refine (dot_apply _ _ b g t e).trans ?_
  exact Finset.sum_congr rfl fun d _ => congrArg (· * Wp (ix2 d e)) (gather_apply u idx3 b g t d)

end Cert.UpdateRead

end
-- ==== Proof.RefStep.lean ====
/-
  One iteration of the reference, at exact (extended-real) arithmetic, read at an element.

  For each of the four projections k the reference gathers, for every index word j (512 groups of 16), the row of the
  activations that the word names (a negative word first offset by 8192; then read signed and clamped into the table),
  multiplies it into the k-th weight matrix, scales by s, and scatter-adds the product onto the row the SAME word
  names (read signed, NOT clamped: a word outside the table adds nothing). Where a word lands on row n, the clamped row
  it gathered is row n too. So element (b, n, e) of the accumulated correction receives, once for every word of
  projection k that reads n, the value s · ∑_d u[b,n,d] · W[k,d,e].
-/
import proofs.«173885_j49976239456835_2_alg».proof.Proof.Gen.ReferenceIdeal
import proofs.«173885_j49976239456835_2_alg».proof.Proof.ScatterReads
import proofs.«173885_j49976239456835_2_alg».proof.Proof.UpdateRead
import Idealize.ShloMosaic.Lib.ValueIdx
import Idealize.ShloMosaic.Lib.Pipeline.Value

noncomputable section

open scoped BigOperators

namespace Cert.RefStep

open Cert.ReferenceIdeal Idealize.ShloMosaic Idealize.ShloMosaic.ValueIdx
open Facts₀

/-- The [512,16] index words of projection k. -/
def grp (k : ℕ) (hk : S4x512x16.Slices ![k, 0, 0] S1x512x16) (g : IVec S4x512x16 32) : IVec S512x16 32 :=
  shapeCast _ (extractStridedSlice S1x512x16 ![k, 0, 0] g hk) shapeCasts_S1x512x16_S512x16

/-- The same words flattened to [8192]. -/
def flat (k : ℕ) (hk : S4x512x16.Slices ![k, 0, 0] S1x512x16) (g : IVec S4x512x16 32) : IVec S8192 32 :=
  shapeCast _ (grp k hk g) shapeCasts_S512x16_S8192

/-- A negative word is offset by the table's height (the [512,16] spelling). -/
def norm2 (x : IVec S512x16 32) : IVec S512x16 32 :=
  select (cmpi .slt x (broadcastInDim S512x16 ![] bcast_S_S512x16 (constantI S_ 32 0#32))) (addi x (broadcastInDim S512x16 ![] bcast_S_S512x16 (constantI S_ 32 8192#32))) x

/-- A negative word is offset by the table's height (the [8192] spelling). -/
def norm1 (x : IVec S8192 32) : IVec S8192 32 :=
  select (cmpi .slt x (broadcastInDim S8192 ![] bcast_S_S8192 (constantI S_ 32 0#32))) (addi x (broadcastInDim S8192 ![] bcast_S_S8192 (constantI S_ 32 8192#32))) x

/-- One projection's scaled products scatter-added onto acc. -/
def addProj (s : BitVec 32) (k : ℕ) (hk : S4x512x16.Slices ![k, 0, 0] S1x512x16) (hkw : S4x512x512.Slices ![k, 0, 0] S1x512x512)
    (u : FVec Ideal S8x8192x512 .f32) (W : FVec Ideal S4x512x512 .f32) (g : IVec S4x512x16 32)
    (acc : FVec Ideal S8x8192x512 .f32) : FVec Ideal S8x8192x512 .f32 :=
  Host.scatterAdd scatter_S8x8192x512_S8192x1_S8x8192x512_02_1_1_1 acc
    (broadcastInDim S8192x1 ![0] bcast_S8192_S8192x1_0 (norm1 (flat k hk g)))
    (Cert.UpdateRead.upd s u (broadcastInDim S512x16x1 ![0, 1] bcast_S512x16_S512x16x1_0_1 (norm2 (grp k hk g)))
      (shapeCast _ (extractStridedSlice S1x512x512 ![k, 0, 0] W hkw) shapeCasts_S1x512x512_S512x512))

/-- The correction of one iteration: the four projections accumulated from zero. -/
def delta (s : BitVec 32) (u : FVec Ideal S8x8192x512 .f32) (W : FVec Ideal S4x512x512 .f32) (g : IVec S4x512x16 32) :
    FVec Ideal S8x8192x512 .f32 :=
  addProj s 3 slices_S4x512x16_S1x512x16_3_0_0 slices_S4x512x512_S1x512x512_3_0_0 u W g
    (addProj s 2 slices_S4x512x16_S1x512x16_2_0_0 slices_S4x512x512_S1x512x512_2_0_0 u W g
      (addProj s 1 slices_S4x512x16_S1x512x16_1_0_0 slices_S4x512x512_S1x512x512_1_0_0 u W g
        (addProj s 0 slices_S4x512x16_S1x512x16_0_0_0 slices_S4x512x512_S1x512x512_0_0_0 u W g
          (broadcastInDim S8x8192x512 ![] bcast_S_S8x8192x512 (constant S_ .f32 0x00000000#32)))))

/-- One iteration of the reference. -/
def RefIter (s : BitVec 32) (u : FVec Ideal S8x8192x512 .f32) (W : FVec Ideal S4x512x512 .f32) (g : IVec S4x512x16 32) :
    FVec Ideal S8x8192x512 .f32 :=
  addf u (delta s u W g)

/-! ### The pieces read at an index -/

/-- A word offset by the table's height when negative. -/
private def nrm (w : BitVec 32) : BitVec 32 := Scalar.select (IntOp.cmpi .slt w 0#32) (IntOp.addi w 8192#32) w

private theorem norm2_apply (x : IVec S512x16 32) (i : S512x16.Idx) : norm2 x i = nrm (x i) := rfl

private theorem norm1_apply (x : IVec S8192 32) (i : S8192.Idx) : norm1 x i = nrm (x i) := rfl

/-- Word `16 g' + t'` of the flattened words is word `(g', t')` of the grouped ones: the same row-major position. -/
theorem flat_apply (k : ℕ) (hk : S4x512x16.Slices ![k, 0, 0] S1x512x16) (g : IVec S4x512x16 32) (g' : Fin 512) (t' : Fin 16) :
    flat k hk g (ix1 ⟨g'.val * 16 + t'.val, by omega⟩) = grp k hk g (ix2 g' t') := by
  unfold flat
  refine shapeCast_apply _ _ _ (ix2 g' t') ?_
  rw [Shape.rowMajor_val_two, Shape.rowMajor_val_one]
  rfl

/-- The normalized words agree in the two spellings. -/
theorem norm_flat_apply (k : ℕ) (hk : S4x512x16.Slices ![k, 0, 0] S1x512x16) (g : IVec S4x512x16 32) (g' : Fin 512) (t' : Fin 16) :
    norm2 (grp k hk g) (ix2 g' t') = norm1 (flat k hk g) (ix1 ⟨g'.val * 16 + t'.val, by omega⟩) := by
  rw [norm2_apply, norm1_apply, flat_apply]

/-- The index column of the scatter at `(j, 0)` is word `j`. -/
theorem col_apply (x : IVec S8192 32) (j : Fin 8192) :
    broadcastInDim S8192x1 ![0] bcast_S8192_S8192x1_0 x (ix2 j 0) = x (ix1 j) := by
  refine broadcastInDim_apply _ _ _ _ (ix1 j) ?_
  intro a
  match a with
  | ⟨0, _⟩ => rfl

/-- The index array of the gather at `(g', t', 0)` is word `(g', t')`. -/
theorem col3_apply (x : IVec S512x16 32) (g' : Fin 512) (t' : Fin 16) :
    broadcastInDim S512x16x1 ![0, 1] bcast_S512x16_S512x16x1_0_1 x (ix3 g' t' 0) = x (ix2 g' t') := by
  refine broadcastInDim_apply _ _ _ _ (ix2 g' t') ?_
  intro a
  match a with
  | ⟨0, _⟩ => rfl
  | ⟨1, _⟩ => rfl

/-- The weight slab of projection `k` at `(d, e)` is `W[k, d, e]`. -/
theorem slab_apply (k : ℕ) (hk4 : k < 4) (hkw : S4x512x512.Slices ![k, 0, 0] S1x512x512) (W : FVec Ideal S4x512x512 .f32)
    (d e : Fin 512) :
    shapeCast S512x512 (extractStridedSlice S1x512x512 ![k, 0, 0] W hkw) shapeCasts_S1x512x512_S512x512 (ix2 d e)
      = W (ix3 ⟨k, hk4⟩ d e) := by
  refine (shapeCast_apply _ _ _ (ix3 0 d e) ?_).trans ?_
  · rw [Shape.rowMajor_val_three, Shape.rowMajor_val_two]
    show ((0 : ℕ) * 512 + d.val) * 512 + e.val = d.val * 512 + e.val
    omega
  · refine extractStridedSlice_apply _ _ _ _ (ix3 ⟨k, hk4⟩ d e) ?_
    intro a
    match a with
    | ⟨0, _⟩ => rfl
    | ⟨1, _⟩ => show d.val = 0 + d.val; omega
    | ⟨2, _⟩ => show e.val = 0 + e.val; omega

private theorem ite_congr_zero {A B : Prop} [Decidable A] [Decidable B] {X Y : EReal} (hab : A ↔ B) (hxy : B → X = Y) :
    (if A then X else 0) = (if B then Y else 0) := by
  by_cases hb : B
  · rw [if_pos (hab.mpr hb), if_pos hb, hxy hb]
  · rw [if_neg (fun ha => hb (hab.mp ha)), if_neg hb]

/-- Where word `16 g' + t'` reads `n`, the update row it produced was computed from row `n`: the clamped row the
    gather took is the row the scatter writes. -/
theorem upd_row (s : BitVec 32) (k : ℕ) (hk4 : k < 4) (hk : S4x512x16.Slices ![k, 0, 0] S1x512x16)
    (hkw : S4x512x512.Slices ![k, 0, 0] S1x512x512)
    (u : FVec Ideal S8x8192x512 .f32) (W : FVec Ideal S4x512x512 .f32) (g : IVec S4x512x16 32)
    (b : Fin 8) (n : Fin 8192) (e : Fin 512) (g' : Fin 512) (t' : Fin 16)
    (h : (norm1 (flat k hk g) (ix1 ⟨g'.val * 16 + t'.val, by omega⟩)).toInt = (n.val : ℤ)) :
    Cert.UpdateRead.upd s u (broadcastInDim S512x16x1 ![0, 1] bcast_S512x16_S512x16x1_0_1 (norm2 (grp k hk g)))
        (shapeCast _ (extractStridedSlice S1x512x512 ![k, 0, 0] W hkw) shapeCasts_S1x512x512_S512x512)
        (ix3 b ⟨g'.val * 16 + t'.val, by omega⟩ e)
      = Ideal.ofBits .f32 s * ∑ d : Fin 512, u (ix3 b n d) * W (ix3 ⟨k, hk4⟩ d e) := by
  refine (Cert.UpdateRead.upd_apply s u _ _ b g' t' e).trans ?_
  refine congrArg (fun t => Ideal.ofBits .f32 s * t) (Finset.sum_congr rfl fun d _ => ?_)
  have hword : (broadcastInDim S512x16x1 ![0, 1] bcast_S512x16_S512x16x1_0_1 (norm2 (grp k hk g)) (ix3 g' t' 0)).toInt
      = (n.val : ℤ) := by
    rw [col3_apply, norm_flat_apply]; exact h
  have hrow : (⟨min (broadcastInDim S512x16x1 ![0, 1] bcast_S512x16_S512x16x1_0_1 (norm2 (grp k hk g)) (ix3 g' t' 0)).toInt.toNat 8191,
      by omega⟩ : Fin 8192) = n := by
    refine Fin.ext ?_
    show min (broadcastInDim S512x16x1 ![0, 1] bcast_S512x16_S512x16x1_0_1 (norm2 (grp k hk g)) (ix3 g' t' 0)).toInt.toNat 8191 = n.val
    rw [hword, Int.toNat_natCast]
    have := n.isLt
    omega
  rw [hrow, slab_apply k hk4 hkw W d e]

theorem addProj_apply (s : BitVec 32) (k : ℕ) (hk4 : k < 4) (hk : S4x512x16.Slices ![k, 0, 0] S1x512x16) (hkw : S4x512x512.Slices ![k, 0, 0] S1x512x512)
    (u : FVec Ideal S8x8192x512 .f32) (W : FVec Ideal S4x512x512 .f32) (g : IVec S4x512x16 32) (acc : FVec Ideal S8x8192x512 .f32)
    (b : Fin 8) (n : Fin 8192) (e : Fin 512) :
    addProj s k hk hkw u W g acc (ix3 b n e)
      = acc (ix3 b n e) + ∑ j : Fin 8192, if (norm1 (flat k hk g) (ix1 j)).toInt = (n.val : ℤ)
          then Ideal.ofBits .f32 s * ∑ d : Fin 512, u (ix3 b n d) * W (ix3 ⟨k, hk4⟩ d e) else 0 := by
  unfold addProj
  refine (Cert.ScatterReads.scatter3_apply acc _ _ b n e).trans ?_
  refine congrArg (fun t => acc (ix3 b n e) + t) (Finset.sum_congr rfl fun j _ => ?_)
  obtain ⟨g', t', rfl⟩ : ∃ (g' : Fin 512) (t' : Fin 16), j = ⟨g'.val * 16 + t'.val, by omega⟩ :=
    ⟨⟨j.val / 16, by have := j.isLt; omega⟩, ⟨j.val % 16, by omega⟩,
      Fin.ext (by show j.val = j.val / 16 * 16 + j.val % 16; omega)⟩
  refine ite_congr_zero (by rw [col_apply]) ?_
  intro h
  exact upd_row s k hk4 hk hkw u W g b n e g' t' h

private theorem add_congr_left {a a' c : EReal} (h : a = a') : a + c = a' + c := by rw [h]

/-- The correction starts at zero. -/
theorem zero_apply (i : S8x8192x512.Idx) :
    broadcastInDim S8x8192x512 ![] bcast_S_S8x8192x512 (constant (F := Ideal) S_ .f32 0x00000000#32) i = (0 : EReal) := by
  show Ideal.ofBits .f32 0x00000000#32 = 0
  simp [Ideal.ofBits, Ideal.ieee]

theorem refIter_apply (s : BitVec 32) (u : FVec Ideal S8x8192x512 .f32) (W : FVec Ideal S4x512x512 .f32) (g : IVec S4x512x16 32) (b : Fin 8) (n : Fin 8192) (e : Fin 512) :
    RefIter s u W g (ix3 b n e)
      = u (ix3 b n e) + (((((0 : EReal)
          + ∑ j : Fin 8192, if (norm1 (flat 0 slices_S4x512x16_S1x512x16_0_0_0 g) (ix1 j)).toInt = (n.val : ℤ) then Ideal.ofBits .f32 s * ∑ d : Fin 512, u (ix3 b n d) * W (ix3 0 d e) else 0)
          + ∑ j : Fin 8192, if (norm1 (flat 1 slices_S4x512x16_S1x512x16_1_0_0 g) (ix1 j)).toInt = (n.val : ℤ) then Ideal.ofBits .f32 s * ∑ d : Fin 512, u (ix3 b n d) * W (ix3 1 d e) else 0)
          + ∑ j : Fin 8192, if (norm1 (flat 2 slices_S4x512x16_S1x512x16_2_0_0 g) (ix1 j)).toInt = (n.val : ℤ) then Ideal.ofBits .f32 s * ∑ d : Fin 512, u (ix3 b n d) * W (ix3 2 d e) else 0)
          + ∑ j : Fin 8192, if (norm1 (flat 3 slices_S4x512x16_S1x512x16_3_0_0 g) (ix1 j)).toInt = (n.val : ℤ) then Ideal.ofBits .f32 s * ∑ d : Fin 512, u (ix3 b n d) * W (ix3 3 d e) else 0) := by
  unfold RefIter delta
  refine (addf_apply _ _ _).trans ?_
  refine congrArg (fun t => u (ix3 b n e) + t) ?_
  refine (addProj_apply s 3 (by decide) _ _ u W g _ b n e).trans (add_congr_left ?_)
  refine (addProj_apply s 2 (by decide) _ _ u W g _ b n e).trans (add_congr_left ?_)
  refine (addProj_apply s 1 (by decide) _ _ u W g _ b n e).trans (add_congr_left ?_)
  refine (addProj_apply s 0 (by decide) _ _ u W g _ b n e).trans (add_congr_left ?_)
  exact zero_apply _

end Cert.RefStep

end
-- ==== Proof.RefRun.lean ====
/-
  The reference's three iterations, folded: each named intermediate array of the reference's run is one application of
  the iteration  u ↦ u + (the four projections' scaled products, scatter-added from zero)  to the previous activations,
  with the index words and the weights re-sliced from the same two arguments every time. Iteration 1 scales by the word
  0x3F800000, iteration 2 by 0x3F000000, iteration 3 by 0x3EAAAAAB; the result is the third iterate of the input.
  Every equation holds by unfolding the names on both sides.
-/
import proofs.«173885_j49976239456835_2_alg».proof.Proof.RefStep
import proofs.«173885_j49976239456835_2_alg».proof.Proof.Gen.ReferenceIdeal.Run

noncomputable section

namespace Cert.RefRun

open Cert.ReferenceIdeal Cert.ReferenceIdeal.Value Cert.RefStep Idealize.ShloMosaic Idealize.ShloMosaic.TcCoe Idealize.ShloMosaic.StableHlo

/-- Iteration 1's correction: the four scatter-adds of the run, from the input activations. -/
theorem res92 (V0 : Valuation τ sig (Elt Ideal)) :
    res_main_v92 V0 = delta 0x3F800000#32 (V0 (Proc.devRef .tc main_arg0)) (V0 (Proc.devRef .tc main_arg1)) (V0 (Proc.devRef .tc main_arg2)) := by
  unfold res_main_v92 res_main_v15 res_main_v38 res_main_v61 res_main_v84 res_main_v2 res_main_v25 res_main_v48 res_main_v71
  rfl

/-- The activations after iteration 1. -/
theorem res93 (V0 : Valuation τ sig (Elt Ideal)) :
    res_main_v93 V0 = RefIter 0x3F800000#32 (V0 (Proc.devRef .tc main_arg0)) (V0 (Proc.devRef .tc main_arg1)) (V0 (Proc.devRef .tc main_arg2)) := by
  unfold res_main_v93 RefIter
  rw [res92]

/-- Iteration 2's correction, from the activations after iteration 1 (kept as the run names them). -/
theorem res186 (V0 : Valuation τ sig (Elt Ideal)) :
    res_main_v186 V0 = delta 0x3F000000#32 (res_main_v93 V0) (V0 (Proc.devRef .tc main_arg1)) (V0 (Proc.devRef .tc main_arg2)) := by
  unfold res_main_v186 res_main_v109 res_main_v132 res_main_v155 res_main_v178 res_main_v96 res_main_v119 res_main_v142 res_main_v165
  rfl

/-- The activations after iteration 2. -/
theorem res187 (V0 : Valuation τ sig (Elt Ideal)) :
    res_main_v187 V0 = RefIter 0x3F000000#32 (RefIter 0x3F800000#32 (V0 (Proc.devRef .tc main_arg0)) (V0 (Proc.devRef .tc main_arg1)) (V0 (Proc.devRef .tc main_arg2))) (V0 (Proc.devRef .tc main_arg1)) (V0 (Proc.devRef .tc main_arg2)) := by
  rw [← res93]
  unfold res_main_v187 RefIter
  rw [res186]

/-- Iteration 3's correction, from the activations after iteration 2 (kept as the run names them). -/
theorem res280 (V0 : Valuation τ sig (Elt Ideal)) :
    res_main_v280 V0 = delta 0x3EAAAAAB#32 (res_main_v187 V0) (V0 (Proc.devRef .tc main_arg1)) (V0 (Proc.devRef .tc main_arg2)) := by
  unfold res_main_v280 res_main_v203 res_main_v226 res_main_v249 res_main_v272 res_main_v190 res_main_v213 res_main_v236 res_main_v259
  rfl

/-- The result: the third iterate of the input activations. -/
theorem res_out (V0 : Valuation τ sig (Elt Ideal)) :
    addf (res_main_v187 V0) (res_main_v280 V0) = RefIter 0x3EAAAAAB#32 (RefIter 0x3F000000#32 (RefIter 0x3F800000#32 (V0 (Proc.devRef .tc main_arg0)) (V0 (Proc.devRef .tc main_arg1)) (V0 (Proc.devRef .tc main_arg2))) (V0 (Proc.devRef .tc main_arg1)) (V0 (Proc.devRef .tc main_arg2))) (V0 (Proc.devRef .tc main_arg1)) (V0 (Proc.devRef .tc main_arg2)) := by
  rw [← res187, res280]
  rfl

end Cert.RefRun

end
-- ==== Proof.Assemble.lean ====
/-
  The five claims, assembled. The three frame claims are the generated frame certificates (the reference's from its
  generated run, read at the arguments only). The idealization rewrote nothing, so what it preserves is trivial. The
  algebraic claim: the idealized kernel program ends with its result array at the last boundary's contents, which (first
  hypothesis) are the kernel's iteration applied three times to the flattened activations, reshaped back; three kernel
  iterations between the two reshapes are three iterations of the reference (second hypothesis); and the reference's run
  ends with its result at three reference iterations of ITS arguments, which agree with the kernel program's. So both
  results are the third reference iterate of the kernel program's arguments, on every device.
-/
import proofs.«173885_j49976239456835_2_alg».proof.Defs
import proofs.«173885_j49976239456835_2_alg».proof.Proof.Gen.Kernel
import proofs.«173885_j49976239456835_2_alg».proof.Proof.Gen.Kernel.Frame
import proofs.«173885_j49976239456835_2_alg».proof.Proof.Gen.KernelIdeal
import proofs.«173885_j49976239456835_2_alg».proof.Proof.Gen.KernelIdeal.Frame
import proofs.«173885_j49976239456835_2_alg».proof.Proof.Gen.ReferenceIdeal
import proofs.«173885_j49976239456835_2_alg».proof.Proof.Gen.Pre_finite_inputs
import proofs.«173885_j49976239456835_2_alg».proof.Proof.Gen.ReferenceIdeal.Run
import proofs.«173885_j49976239456835_2_alg».proof.Proof.KRun
import proofs.«173885_j49976239456835_2_alg».proof.Proof.KArgs
import proofs.«173885_j49976239456835_2_alg».proof.Proof.RefRun

noncomputable section

namespace Cert.Assemble

open Idealize.ShloMosaic Idealize.ShloMosaic.TcCoe Idealize.SL.Sem

/-- The kernel program as printed runs and keeps its arguments: the generated frame certificate. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference runs and keeps its arguments: its generated run, read at the arguments. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

section Algebraic
open Cert.KernelIdeal Cert.KernelIdeal.Gen Cert.KernelIdeal.KValue Cert.KernelIdeal.Step Cert.RefStep

/-- The two programs end with equal results, given what the kernel program's last boundary holds (hK) and that three
    kernel iterations between the reshapes are three reference iterations (hB). -/
theorem algebraic_of
    (hK : ∀ (m : (ℓ : Loc nD τ sig) → Buf (Elt Ideal) ℓ) (ρ : Dev nD → PrngReg) (c : Dev nD),
      W7 m ρ c (Proc.devRef .tc main_v71) = R3 (KIter 0x3EAAAAAB#32 (KIter 0x3F000000#32 (KIter 0x3F800000#32 (R2 (m ((c : Thread nD τ).loc main_arg0))) (wbOf (m ((c : Thread nD τ).loc main_arg1))) (ctOf (m ((c : Thread nD τ).loc main_arg2)))) (wbOf (m ((c : Thread nD τ).loc main_arg1))) (ctOf (m ((c : Thread nD τ).loc main_arg2)))) (wbOf (m ((c : Thread nD τ).loc main_arg1))) (ctOf (m ((c : Thread nD τ).loc main_arg2)))))
    (hB : ∀ (u : FVec Ideal Cert.KernelIdeal.S8x8192x512 .f32) (W : FVec Ideal Cert.KernelIdeal.S4x512x512 .f32) (g : IVec Cert.KernelIdeal.S4x512x16 32),
      R3 (KIter 0x3EAAAAAB#32 (KIter 0x3F000000#32 (KIter 0x3F800000#32 (R2 u) (wbOf W) (ctOf g)) (wbOf W) (ctOf g)) (wbOf W) (ctOf g)) = RefIter 0x3EAAAAAB#32 (RefIter 0x3F000000#32 (RefIter 0x3F800000#32 u W g) W g) W g) :
    Cert.algebraic_KernelIdeal_ReferenceIdeal := by
  intro m ρ m' ρ' _ hagree
  refine ⟨fun c => RefIter 0x3EAAAAAB#32 (RefIter 0x3F000000#32 (RefIter 0x3F800000#32 (m ((c : Thread nD τ).loc main_arg0)) (m ((c : Thread nD τ).loc main_arg1)) (m ((c : Thread nD τ).loc main_arg2))) (m ((c : Thread nD τ).loc main_arg1)) (m ((c : Thread nD τ).loc main_arg2))) (m ((c : Thread nD τ).loc main_arg1)) (m ((c : Thread nD τ).loc main_arg2)), ?_, ?_⟩
  · exact (θ_run _ _ _).mono (fun r h c => ⟨(h c).1.trans ((hK m ρ c).trans (hB _ _ _)), (h c).2⟩) (Cert.KernelIdeal.RunV.run_named m ρ)
  · refine (θ_run Cert.ReferenceIdeal.defs _ _).mono (fun _ h c => ⟨(h c).1.trans ?_, (h c).2⟩)
      (Cert.ReferenceIdeal.Value.run (F := Ideal) m' ρ')
    have e0 : StableHlo.launchContents m' c (Proc.devRef .tc Cert.ReferenceIdeal.main_arg0) = m ((c : Thread nD τ).loc main_arg0) := (hagree c).1
    have e1 : StableHlo.launchContents m' c (Proc.devRef .tc Cert.ReferenceIdeal.main_arg1) = m ((c : Thread nD τ).loc main_arg1) := (hagree c).2.1
    have e2 : StableHlo.launchContents m' c (Proc.devRef .tc Cert.ReferenceIdeal.main_arg2) = m ((c : Thread nD τ).loc main_arg2) := (hagree c).2.2
    rw [Cert.RefRun.res_out, e0, e1, e2]

/-- Everything claimed, from the two value facts: the facts' witnesses are the generated modules' instances. -/
theorem claim_of
    (hK : ∀ (m : (ℓ : Loc nD τ sig) → Buf (Elt Ideal) ℓ) (ρ : Dev nD → PrngReg) (c : Dev nD),
      W7 m ρ c (Proc.devRef .tc main_v71) = R3 (KIter 0x3EAAAAAB#32 (KIter 0x3F000000#32 (KIter 0x3F800000#32 (R2 (m ((c : Thread nD τ).loc main_arg0))) (wbOf (m ((c : Thread nD τ).loc main_arg1))) (ctOf (m ((c : Thread nD τ).loc main_arg2)))) (wbOf (m ((c : Thread nD τ).loc main_arg1))) (ctOf (m ((c : Thread nD τ).loc main_arg2)))) (wbOf (m ((c : Thread nD τ).loc main_arg1))) (ctOf (m ((c : Thread nD τ).loc main_arg2)))))
    (hB : ∀ (u : FVec Ideal Cert.KernelIdeal.S8x8192x512 .f32) (W : FVec Ideal Cert.KernelIdeal.S4x512x512 .f32) (g : IVec Cert.KernelIdeal.S4x512x16 32),
      R3 (KIter 0x3EAAAAAB#32 (KIter 0x3F000000#32 (KIter 0x3F800000#32 (R2 u) (wbOf W) (ctOf g)) (wbOf W) (ctOf g)) (wbOf W) (ctOf g)) = RefIter 0x3EAAAAAB#32 (RefIter 0x3F000000#32 (RefIter 0x3F800000#32 u W g) W g) W g) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hK hB⟩

end Algebraic

end Cert.Assemble

end
-- ==== Proof.KRegion0.lean ====
/-
  Launch 0 of the fused kernel as ONE function of the arrays it finds: grid point t stages rows 2048 t … 2048 t + 2047 of
  the flattened activations, the whole weight array, and rows 2048 (t mod 4) … of the transposed count table (the table
  has 8192 rows and the activations' row index is the particle index modulo 8192), and writes back the same rows of
  the result. The 32 blocks tile the result array, so after the launch it holds the launch's function (scale 1)
  of the three input arrays at every index.
-/
import proofs.«173885_j49976239456835_2_alg».proof.Proof.KStep
import Idealize.ShloMosaic.Lib.Pipeline.Value

set_option maxRecDepth 16384

noncomputable section

namespace Cert.KernelIdeal.Reg0

open Cert.KernelIdeal Cert.KernelIdeal.Gen Cert.KernelIdeal.Step
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The printed index maps, decided over the grid. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val % 4 ∧ win0_2.index t (1 : Fin 2) = 0
    ∧ win0_3.index t (0 : Fin 2) = t.val ∧ win0_3.index t (1 : Fin 2) = 0 :=
  (by decide +kernel : ∀ t : Fin grid0.N, _)

/-- What grid point t writes back is block t of the launch's function of the arrays as the launch finds them. -/
theorem flushed_eq (c : Dev nD) (t : Fin cfg0.N) :
    (dat0 V c).flushed 3 t = ((cfg0.win 3).blk t).view.read (Elt Ideal)
      (KIter 0x3F800000#32 (V c main_v63) (V c main_v62) (V c main_v61)) := by
  show (cfg0.win 3).cut (grid0.coords t) ((dat0 V c).after 3 t) = _
  rw [after0_3]
  unfold out0_3
  rw [View.canon_unit_zero hz2, k0_pay1_eq]
  obtain ⟨e00, e01, e10, e11, e12, e20, e21, e30, e31⟩ := idx_facts t
  have ht : t.val < 32 := (show t.val < grid0.N from t.isLt).trans_eq N_0
  funext j
  obtain ⟨y, e, rfl⟩ : ∃ (y : Fin 2048) (e : Fin 512), j = ix2 y e := ⟨j 0, j 1, eq_ix2 j⟩
  show pay (F := Ideal) 0x3F800000#32 (View.ld (iblk0 V c 0 t) r0_0) (View.ld (iblk0 V c 2 t) r0_1) (View.ld (iblk0 V c 1 t) r0_2)
      (View.ld (iblk0 V c 1 t) r0_3) (View.ld (iblk0 V c 1 t) r0_4) (View.ld (iblk0 V c 1 t) r0_5) (ix2 y e)
    = KIter 0x3F800000#32 (V c main_v63) (V c main_v62) (V c main_v61) (((cfg0.win 3).blk t).view.emb (ix2 y e))
  have hemb : ((cfg0.win 3).blk t).view.emb (ix2 y e) = ix2 (⟨t.val * 2048 + y.val, by omega⟩ : Fin 65536) e := by
    funext a; apply Fin.ext
    match a with
    | ⟨0, _⟩ => show win0_3.index t (0 : Fin 2) * 2048 + 1 * y.val = t.val * 2048 + y.val; omega
    | ⟨1, _⟩ => show win0_3.index t (1 : Fin 2) * 512 + 1 * e.val = e.val; omega
  rw [hemb, KIter_apply]
  refine flushed_core 0x3F800000#32 (iblk0 V c 0 t) (iblk0 V c 1 t) (iblk0 V c 2 t) (V c main_v63) (V c main_v62) (V c main_v61)
    t.val ht ?_ ?_ ?_ y e
  · intro y d
    show V c main_v63 (((cfg0.win 0).blk t).view.emb (ix2 y d)) = V c main_v63 _
    refine congrArg (V c main_v63) ?_
    funext a; apply Fin.ext
    match a with
    | ⟨0, _⟩ => show win0_0.index t (0 : Fin 2) * 2048 + 1 * y.val = t.val * 2048 + y.val; omega
    | ⟨1, _⟩ => show win0_0.index t (1 : Fin 2) * 512 + 1 * d.val = d.val; omega
  · funext j
    show V c main_v62 (((cfg0.win 1).blk t).view.emb j) = V c main_v62 j
    refine congrArg (V c main_v62) ?_
    funext a; apply Fin.ext
    match a with
    | ⟨0, _⟩ => show win0_1.index t (0 : Fin 3) * 4 + 1 * (j 0).val = (j 0).val; omega
    | ⟨1, _⟩ => show win0_1.index t (1 : Fin 3) * 512 + 1 * (j 1).val = (j 1).val; omega
    | ⟨2, _⟩ => show win0_1.index t (2 : Fin 3) * 512 + 1 * (j 2).val = (j 2).val; omega
  · intro y p
    show V c main_v61 (((cfg0.win 2).blk t).view.emb (ix2 y p)) = V c main_v61 _
    refine congrArg (V c main_v61) ?_
    funext a; apply Fin.ext
    match a with
    | ⟨0, _⟩ => show win0_2.index t (0 : Fin 2) * 2048 + 1 * y.val = (t.val % 4) * 2048 + y.val; omega
    | ⟨1, _⟩ => show win0_2.index t (1 : Fin 2) * 4 + 1 * p.val = p.val; omega

/-- An index of the result array is in point t's block iff each coordinate is in the block's range on its axis. -/
theorem mem_blk (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v64).slice (win0_3.rect t)).set ↔ _
  rw [View.set_slice_whole, Rect.mem_set_unit]
  exact Iff.rfl

/-- Every row of the result is in some point's block: row r in block r / 2048. -/
theorem cover (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  obtain ⟨t, ht⟩ : ∃ t : Fin cfg0.N, t.val = (i 0).val / 2048 :=
    ⟨⟨(i 0).val / 2048, by have h32 : cfg0.N = 32 := N_0; omega⟩, rfl⟩
  obtain ⟨-, -, -, -, -, -, -, e30, e31⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- THE RESULT ARRAY after the launch. -/
theorem final (c : Dev nD) :
    (dat0 V c).arrAt 3 cfg0.N = KIter 0x3F800000#32 (V c main_v63) (V c main_v62) (V c main_v61) :=
  (dat0 V c).arrAt_eq_of_cover 3 _ (fun t _ => flushed_eq V c t) cover

end Cert.KernelIdeal.Reg0

end
-- ==== Proof.KRegion1.lean ====
/-
  Launch 1 of the fused kernel as ONE function of the arrays it finds: grid point t stages rows 2048 t … 2048 t + 2047 of
  the flattened activations, the whole weight array, and rows 2048 (t mod 4) … of the transposed count table (the table
  has 8192 rows and the activations' row index is the particle index modulo 8192), and writes back the same rows of
  the result. The 32 blocks tile the result array, so after the launch it holds the launch's function (scale 1/2)
  of the three input arrays at every index.
-/
import proofs.«173885_j49976239456835_2_alg».proof.Proof.KStep
import Idealize.ShloMosaic.Lib.Pipeline.Value

set_option maxRecDepth 16384

noncomputable section

namespace Cert.KernelIdeal.Reg1

open Cert.KernelIdeal Cert.KernelIdeal.Gen Cert.KernelIdeal.Step
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The printed index maps, decided over the grid. -/
theorem idx_facts : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = t.val % 4 ∧ win1_2.index t (1 : Fin 2) = 0
    ∧ win1_3.index t (0 : Fin 2) = t.val ∧ win1_3.index t (1 : Fin 2) = 0 :=
  (by decide +kernel : ∀ t : Fin grid1.N, _)

/-- What grid point t writes back is block t of the launch's function of the arrays as the launch finds them. -/
theorem flushed_eq (c : Dev nD) (t : Fin cfg1.N) :
    (dat1 V c).flushed 3 t = ((cfg1.win 3).blk t).view.read (Elt Ideal)
      (KIter 0x3F000000#32 (V c main_v66) (V c main_v62) (V c main_v61)) := by
  show (cfg1.win 3).cut (grid1.coords t) ((dat1 V c).after 3 t) = _
  rw [after1_3]
  unfold out1_3
  rw [View.canon_unit_zero hz2, k1_pay1_eq]
  obtain ⟨e00, e01, e10, e11, e12, e20, e21, e30, e31⟩ := idx_facts t
  have ht : t.val < 32 := (show t.val < grid1.N from t.isLt).trans_eq N_1
  funext j
  obtain ⟨y, e, rfl⟩ : ∃ (y : Fin 2048) (e : Fin 512), j = ix2 y e := ⟨j 0, j 1, eq_ix2 j⟩
  show pay (F := Ideal) 0x3F000000#32 (View.ld (iblk1 V c 0 t) r1_0) (View.ld (iblk1 V c 2 t) r1_1) (View.ld (iblk1 V c 1 t) r1_2)
      (View.ld (iblk1 V c 1 t) r1_3) (View.ld (iblk1 V c 1 t) r1_4) (View.ld (iblk1 V c 1 t) r1_5) (ix2 y e)
    = KIter 0x3F000000#32 (V c main_v66) (V c main_v62) (V c main_v61) (((cfg1.win 3).blk t).view.emb (ix2 y e))
  have hemb : ((cfg1.win 3).blk t).view.emb (ix2 y e) = ix2 (⟨t.val * 2048 + y.val, by omega⟩ : Fin 65536) e := by
    funext a; apply Fin.ext
    match a with
    | ⟨0, _⟩ => show win1_3.index t (0 : Fin 2) * 2048 + 1 * y.val = t.val * 2048 + y.val; omega
    | ⟨1, _⟩ => show win1_3.index t (1 : Fin 2) * 512 + 1 * e.val = e.val; omega
  rw [hemb, KIter_apply]
  refine flushed_core 0x3F000000#32 (iblk1 V c 0 t) (iblk1 V c 1 t) (iblk1 V c 2 t) (V c main_v66) (V c main_v62) (V c main_v61)
    t.val ht ?_ ?_ ?_ y e
  · intro y d
    show V c main_v66 (((cfg1.win 0).blk t).view.emb (ix2 y d)) = V c main_v66 _
    refine congrArg (V c main_v66) ?_
    funext a; apply Fin.ext
    match a with
    | ⟨0, _⟩ => show win1_0.index t (0 : Fin 2) * 2048 + 1 * y.val = t.val * 2048 + y.val; omega
    | ⟨1, _⟩ => show win1_0.index t (1 : Fin 2) * 512 + 1 * d.val = d.val; omega
  · funext j
    show V c main_v62 (((cfg1.win 1).blk t).view.emb j) = V c main_v62 j
    refine congrArg (V c main_v62) ?_
    funext a; apply Fin.ext
    match a with
    | ⟨0, _⟩ => show win1_1.index t (0 : Fin 3) * 4 + 1 * (j 0).val = (j 0).val; omega
    | ⟨1, _⟩ => show win1_1.index t (1 : Fin 3) * 512 + 1 * (j 1).val = (j 1).val; omega
    | ⟨2, _⟩ => show win1_1.index t (2 : Fin 3) * 512 + 1 * (j 2).val = (j 2).val; omega
  · intro y p
    show V c main_v61 (((cfg1.win 2).blk t).view.emb (ix2 y p)) = V c main_v61 _
    refine congrArg (V c main_v61) ?_
    funext a; apply Fin.ext
    match a with
    | ⟨0, _⟩ => show win1_2.index t (0 : Fin 2) * 2048 + 1 * y.val = (t.val % 4) * 2048 + y.val; omega
    | ⟨1, _⟩ => show win1_2.index t (1 : Fin 2) * 4 + 1 * p.val = p.val; omega

/-- An index of the result array is in point t's block iff each coordinate is in the block's range on its axis. -/
theorem mem_blk (t : Fin cfg1.N) (i : S65536x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v67).slice (win1_3.rect t)).set ↔ _
  rw [View.set_slice_whole, Rect.mem_set_unit]
  exact Iff.rfl

/-- Every row of the result is in some point's block: row r in block r / 2048. -/
theorem cover (i : S65536x512.Idx) : ∃ t : Fin cfg1.N, (cfg1.win 3).flush t = true ∧ i ∈ ((cfg1.win 3).blk t).view.set := by
  have hi0 : (i 0).val < 65536 := (i 0).isLt
  have hi1 : (i 1).val < 512 := (i 1).isLt
  obtain ⟨t, ht⟩ : ∃ t : Fin cfg1.N, t.val = (i 0).val / 2048 :=
    ⟨⟨(i 0).val / 2048, by have h32 : cfg1.N = 32 := N_1; omega⟩, rfl⟩
  obtain ⟨-, -, -, -, -, -, -, e30, e31⟩ := idx_facts t
  refine ⟨t, flush1_3 t, ?_⟩
  rw [mem_blk]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 512 ≤ (i 1).val ∧ (i 1).val < win1_3.index t (1 : Fin 2) * 512 + 512
    omega

/-- THE RESULT ARRAY after the launch. -/
theorem final (c : Dev nD) :
    (dat1 V c).arrAt 3 cfg1.N = KIter 0x3F000000#32 (V c main_v66) (V c main_v62) (V c main_v61) :=
  (dat1 V c).arrAt_eq_of_cover 3 _ (fun t _ => flushed_eq V c t) cover

end Cert.KernelIdeal.Reg1

end
-- ==== Proof.KRegion2.lean ====
/-
  Launch 2 of the fused kernel as ONE function of the arrays it finds: grid point t stages rows 2048 t … 2048 t + 2047 of
  the flattened activations, the whole weight array, and rows 2048 (t mod 4) … of the transposed count table (the table
  has 8192 rows and the activations' row index is the particle index modulo 8192), and writes back the same rows of
  the result. The 32 blocks tile the result array, so after the launch it holds the launch's function (scale the single-precision neighbour of 1/3)
  of the three input arrays at every index.
-/
import proofs.«173885_j49976239456835_2_alg».proof.Proof.KStep
import Idealize.ShloMosaic.Lib.Pipeline.Value

set_option maxRecDepth 16384

noncomputable section

namespace Cert.KernelIdeal.Reg2

open Cert.KernelIdeal Cert.KernelIdeal.Gen Cert.KernelIdeal.Step
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The printed index maps, decided over the grid. -/
theorem idx_facts : ∀ t : Fin cfg2.N,
    win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 2) = t.val % 4 ∧ win2_2.index t (1 : Fin 2) = 0
    ∧ win2_3.index t (0 : Fin 2) = t.val ∧ win2_3.index t (1 : Fin 2) = 0 :=
  (by decide +kernel : ∀ t : Fin grid2.N, _)

/-- What grid point t writes back is block t of the launch's function of the arrays as the launch finds them. -/
theorem flushed_eq (c : Dev nD) (t : Fin cfg2.N) :
    (dat2 V c).flushed 3 t = ((cfg2.win 3).blk t).view.read (Elt Ideal)
      (KIter 0x3EAAAAAB#32 (V c main_v69) (V c main_v62) (V c main_v61)) := by
  show (cfg2.win 3).cut (grid2.coords t) ((dat2 V c).after 3 t) = _
  rw [after2_3]
  unfold out2_3
  rw [View.canon_unit_zero hz2, k2_pay1_eq]
  obtain ⟨e00, e01, e10, e11, e12, e20, e21, e30, e31⟩ := idx_facts t
  have ht : t.val < 32 := (show t.val < grid2.N from t.isLt).trans_eq N_2
  funext j
  obtain ⟨y, e, rfl⟩ : ∃ (y : Fin 2048) (e : Fin 512), j = ix2 y e := ⟨j 0, j 1, eq_ix2 j⟩
  show pay (F := Ideal) 0x3EAAAAAB#32 (View.ld (iblk2 V c 0 t) r2_0) (View.ld (iblk2 V c 2 t) r2_1) (View.ld (iblk2 V c 1 t) r2_2)
      (View.ld (iblk2 V c 1 t) r2_3) (View.ld (iblk2 V c 1 t) r2_4) (View.ld (iblk2 V c 1 t) r2_5) (ix2 y e)
    = KIter 0x3EAAAAAB#32 (V c main_v69) (V c main_v62) (V c main_v61) (((cfg2.win 3).blk t).view.emb (ix2 y e))
  have hemb : ((cfg2.win 3).blk t).view.emb (ix2 y e) = ix2 (⟨t.val * 2048 + y.val, by omega⟩ : Fin 65536) e := by
    funext a; apply Fin.ext
    match a with
    | ⟨0, _⟩ => show win2_3.index t (0 : Fin 2) * 2048 + 1 * y.val = t.val * 2048 + y.val; omega
    | ⟨1, _⟩ => show win2_3.index t (1 : Fin 2) * 512 + 1 * e.val = e.val; omega
  rw [hemb, KIter_apply]
  refine flushed_core 0x3EAAAAAB#32 (iblk2 V c 0 t) (iblk2 V c 1 t) (iblk2 V c 2 t) (V c main_v69) (V c main_v62) (V c main_v61)
    t.val ht ?_ ?_ ?_ y e
  · intro y d
    show V c main_v69 (((cfg2.win 0).blk t).view.emb (ix2 y d)) = V c main_v69 _
    refine congrArg (V c main_v69) ?_
    funext a; apply Fin.ext
    match a with
    | ⟨0, _⟩ => show win2_0.index t (0 : Fin 2) * 2048 + 1 * y.val = t.val * 2048 + y.val; omega
    | ⟨1, _⟩ => show win2_0.index t (1 : Fin 2) * 512 + 1 * d.val = d.val; omega
  · funext j
    show V c main_v62 (((cfg2.win 1).blk t).view.emb j) = V c main_v62 j
    refine congrArg (V c main_v62) ?_
    funext a; apply Fin.ext
    match a with
    | ⟨0, _⟩ => show win2_1.index t (0 : Fin 3) * 4 + 1 * (j 0).val = (j 0).val; omega
    | ⟨1, _⟩ => show win2_1.index t (1 : Fin 3) * 512 + 1 * (j 1).val = (j 1).val; omega
    | ⟨2, _⟩ => show win2_1.index t (2 : Fin 3) * 512 + 1 * (j 2).val = (j 2).val; omega
  · intro y p
    show V c main_v61 (((cfg2.win 2).blk t).view.emb (ix2 y p)) = V c main_v61 _
    refine congrArg (V c main_v61) ?_
    funext a; apply Fin.ext
    match a with
    | ⟨0, _⟩ => show win2_2.index t (0 : Fin 2) * 2048 + 1 * y.val = (t.val % 4) * 2048 + y.val; omega
    | ⟨1, _⟩ => show win2_2.index t (1 : Fin 2) * 4 + 1 * p.val = p.val; omega

/-- An index of the result array is in point t's block iff each coordinate is in the block's range on its axis. -/
theorem mem_blk (t : Fin cfg2.N) (i : S65536x512.Idx) :
    i ∈ ((cfg2.win 3).blk t).view.set ↔ ∀ a : Fin 2, win2_3.index t a * S2048x512.size a ≤ (i a).val
      ∧ (i a).val < win2_3.index t a * S2048x512.size a + S2048x512.size a := by
  show i ∈ ((View.whole main_v70).slice (win2_3.rect t)).set ↔ _
  rw [View.set_slice_whole, Rect.mem_set_unit]
  exact Iff.rfl

/-- Every row of the result is in some point's block: row r in block r / 2048. -/
theorem cover (i : S65536x512.Idx) : ∃ t : Fin cfg2.N, (cfg2.win 3).flush t = true ∧ i ∈ ((cfg2.win 3).blk t).view.set := by
  have hi0 : (i 0).val < 65536 := (i 0).isLt
  have hi1 : (i 1).val < 512 := (i 1).isLt
  obtain ⟨t, ht⟩ : ∃ t : Fin cfg2.N, t.val = (i 0).val / 2048 :=
    ⟨⟨(i 0).val / 2048, by have h32 : cfg2.N = 32 := N_2; omega⟩, rfl⟩
  obtain ⟨-, -, -, -, -, -, -, e30, e31⟩ := idx_facts t
  refine ⟨t, flush2_3 t, ?_⟩
  rw [mem_blk]
  intro a
  match a with
  | ⟨0, _⟩ =>
    show win2_3.index t (0 : Fin 2) * 2048 ≤ (i 0).val ∧ (i 0).val < win2_3.index t (0 : Fin 2) * 2048 + 2048
    omega
  | ⟨1, _⟩ =>
    show win2_3.index t (1 : Fin 2) * 512 ≤ (i 1).val ∧ (i 1).val < win2_3.index t (1 : Fin 2) * 512 + 512
    omega

/-- THE RESULT ARRAY after the launch. -/
theorem final (c : Dev nD) :
    (dat2 V c).arrAt 3 cfg2.N = KIter 0x3EAAAAAB#32 (V c main_v69) (V c main_v62) (V c main_v61) :=
  (dat2 V c).arrAt_eq_of_cover 3 _ (fun t _ => flushed_eq V c t) cover

end Cert.KernelIdeal.Reg2

end
-- ==== Proof.KValue.lean ====
/-
  The idealized kernel program's result as one function of its three arguments.

  Before the first launch the host flattens the activations to [65536, 512], rounds the weights to the matrix unit's
  input format and builds the transposed table of counts from the index words; each launch's result is reshaped to
  [8, 8192, 512] and back between launches, and once more at the end. Through the three launches the weights and the
  counts stay as the first launch found them (a launch writes only its result array; the reshapes write only their own
  results), and a reshape there and back is the identity. So the result is the final reshape of three nested launches,
  with scales 1, 1/2 and the single-precision 1/3, of the flattened activations.
-/
import proofs.«173885_j49976239456835_2_alg».proof.Proof.KRegion0
import proofs.«173885_j49976239456835_2_alg».proof.Proof.KRegion1
import proofs.«173885_j49976239456835_2_alg».proof.Proof.KRegion2
import proofs.«173885_j49976239456835_2_alg».proof.Proof.KArgs
import Idealize.ShloMosaic.Lib.StableHlo.Run

set_option maxRecDepth 16384

noncomputable section

namespace Cert.KernelIdeal.KValue

open Cert.KernelIdeal Cert.KernelIdeal.Gen Cert.KernelIdeal.Step
open Idealize.ShloMosaic Idealize.ShloMosaic.ValueIdx Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## What the first launch finds -/

set_option maxHeartbeats 4000000 in
theorem V1_v63 (c : Dev nD) : V1 m ρ c main_v63 = R2 (m ((c : Thread nD τ).loc main_arg0)) := by
  show StableHlo.after hostOps0 (W0 m ρ c) (Proc.devRef .tc main_v63) = _
  simp only [hostOps0]
  after_results_simp
  rfl

set_option maxHeartbeats 4000000 in
theorem V1_v62 (c : Dev nD) : V1 m ρ c main_v62 = wbOf (m ((c : Thread nD τ).loc main_arg1)) := by
  show StableHlo.after hostOps0 (W0 m ρ c) (Proc.devRef .tc main_v62) = _
  simp only [hostOps0]
  after_results_simp
  rfl

set_option maxHeartbeats 4000000 in
theorem V1_v61 (c : Dev nD) : V1 m ρ c main_v61 = ctOf (m ((c : Thread nD τ).loc main_arg2)) := by
  show StableHlo.after hostOps0 (W0 m ρ c) (Proc.devRef .tc main_v61) = _
  simp only [hostOps0]
  after_results_simp
  rfl

/-! ## The first launch's exit -/

theorem W2_v62 (c : Dev nD) : W2 m ρ c (Proc.devRef .tc main_v62) = V1 m ρ c main_v62 :=
  (W2_arr m ρ c 1).trans (((dat0 (V1 m ρ) c).arrAt_in 1 rfl cfg0.N).trans (A_eq0 (V1 m ρ) c 1))
theorem W2_v61 (c : Dev nD) : W2 m ρ c (Proc.devRef .tc main_v61) = V1 m ρ c main_v61 :=
  (W2_arr m ρ c 2).trans (((dat0 (V1 m ρ) c).arrAt_in 2 rfl cfg0.N).trans (A_eq0 (V1 m ρ) c 2))
theorem W2_v64 (c : Dev nD) : W2 m ρ c (Proc.devRef .tc main_v64)
    = KIter 0x3F800000#32 (V1 m ρ c main_v63) (V1 m ρ c main_v62) (V1 m ρ c main_v61) :=
  (W2_arr m ρ c 3).trans (Reg0.final (V1 m ρ) c)

/-! ## What the second launch finds -/

theorem V3_v66 (c : Dev nD) : V3 m ρ c main_v66 = R2 (R3 (W2 m ρ c (Proc.devRef .tc main_v64))) := by
  show StableHlo.after hostOps1 (W2 m ρ c) (Proc.devRef .tc main_v66) = _
  simp only [hostOps1]
  after_results
  try rfl
theorem V3_v62 (c : Dev nD) : V3 m ρ c main_v62 = W2 m ρ c (Proc.devRef .tc main_v62) := by
  show StableHlo.after hostOps1 (W2 m ρ c) (Proc.devRef .tc main_v62) = _
  simp only [hostOps1]
  after_results
  try rfl
theorem V3_v61 (c : Dev nD) : V3 m ρ c main_v61 = W2 m ρ c (Proc.devRef .tc main_v61) := by
  show StableHlo.after hostOps1 (W2 m ρ c) (Proc.devRef .tc main_v61) = _
  simp only [hostOps1]
  after_results
  try rfl

/-! ## The second launch's exit -/

theorem W4_v62 (c : Dev nD) : W4 m ρ c (Proc.devRef .tc main_v62) = V3 m ρ c main_v62 :=
  (W4_arr m ρ c 1).trans (((dat1 (V3 m ρ) c).arrAt_in 1 rfl cfg1.N).trans (A_eq1 (V3 m ρ) c 1))
theorem W4_v61 (c : Dev nD) : W4 m ρ c (Proc.devRef .tc main_v61) = V3 m ρ c main_v61 :=
  (W4_arr m ρ c 2).trans (((dat1 (V3 m ρ) c).arrAt_in 2 rfl cfg1.N).trans (A_eq1 (V3 m ρ) c 2))
theorem W4_v67 (c : Dev nD) : W4 m ρ c (Proc.devRef .tc main_v67)
    = KIter 0x3F000000#32 (V3 m ρ c main_v66) (V3 m ρ c main_v62) (V3 m ρ c main_v61) :=
  (W4_arr m ρ c 3).trans (Reg1.final (V3 m ρ) c)

/-! ## What the third launch finds -/

theorem V5_v69 (c : Dev nD) : V5 m ρ c main_v69 = R2 (R3 (W4 m ρ c (Proc.devRef .tc main_v67))) := by
  show StableHlo.after hostOps2 (W4 m ρ c) (Proc.devRef .tc main_v69) = _
  simp only [hostOps2]
  after_results
  try rfl
theorem V5_v62 (c : Dev nD) : V5 m ρ c main_v62 = W4 m ρ c (Proc.devRef .tc main_v62) := by
  show StableHlo.after hostOps2 (W4 m ρ c) (Proc.devRef .tc main_v62) = _
  simp only [hostOps2]
  after_results
  try rfl
theorem V5_v61 (c : Dev nD) : V5 m ρ c main_v61 = W4 m ρ c (Proc.devRef .tc main_v61) := by
  show StableHlo.after hostOps2 (W4 m ρ c) (Proc.devRef .tc main_v61) = _
  simp only [hostOps2]
  after_results
  try rfl

/-! ## The third launch's exit and the result -/

theorem W6_v70 (c : Dev nD) : W6 m ρ c (Proc.devRef .tc main_v70)
    = KIter 0x3EAAAAAB#32 (V5 m ρ c main_v69) (V5 m ρ c main_v62) (V5 m ρ c main_v61) :=
  (W6_arr m ρ c 3).trans (Reg2.final (V5 m ρ) c)

theorem W7_v71 (c : Dev nD) : W7 m ρ c (Proc.devRef .tc main_v71) = R3 (W6 m ρ c (Proc.devRef .tc main_v70)) := by
  show StableHlo.after hostOps3 (W6 m ρ c) (Proc.devRef .tc main_v71) = _
  simp only [hostOps3]
  after_results
  try rfl

/-- The weights every launch finds. -/
theorem weights (c : Dev nD) : V5 m ρ c main_v62 = wbOf (m ((c : Thread nD τ).loc main_arg1))
    ∧ V3 m ρ c main_v62 = wbOf (m ((c : Thread nD τ).loc main_arg1)) := by
  have h3 : V3 m ρ c main_v62 = wbOf (m ((c : Thread nD τ).loc main_arg1)) := by
    rw [V3_v62, W2_v62, V1_v62]
  exact ⟨by rw [V5_v62, W4_v62, h3], h3⟩

/-- The counts every launch finds. -/
theorem counts (c : Dev nD) : V5 m ρ c main_v61 = ctOf (m ((c : Thread nD τ).loc main_arg2))
    ∧ V3 m ρ c main_v61 = ctOf (m ((c : Thread nD τ).loc main_arg2)) := by
  have h3 : V3 m ρ c main_v61 = ctOf (m ((c : Thread nD τ).loc main_arg2)) := by
    rw [V3_v61, W2_v61, V1_v61]
  exact ⟨by rw [V5_v61, W4_v61, h3], h3⟩

/-- THE RESULT: three nested launches of the flattened activations, reshaped back. -/
theorem W7_result (c : Dev nD) :
    W7 m ρ c (Proc.devRef .tc main_v71) = R3 (KIter 0x3EAAAAAB#32 (KIter 0x3F000000#32 (KIter 0x3F800000#32
      (R2 (m ((c : Thread nD τ).loc main_arg0))) (wbOf (m ((c : Thread nD τ).loc main_arg1))) (ctOf (m ((c : Thread nD τ).loc main_arg2))))
      (wbOf (m ((c : Thread nD τ).loc main_arg1))) (ctOf (m ((c : Thread nD τ).loc main_arg2))))
      (wbOf (m ((c : Thread nD τ).loc main_arg1))) (ctOf (m ((c : Thread nD τ).loc main_arg2)))) := by
  rw [W7_v71, W6_v70, (weights m ρ c).1, (counts m ρ c).1, V5_v69, W4_v67, R2_R3, (weights m ρ c).2, (counts m ρ c).2,
    V3_v66, W2_v64, R2_R3, V1_v63, V1_v62, V1_v61]

end Cert.KernelIdeal.KValue

end
-- ==== Proof.Spec.lean ====
/-
  The algebra that joins the two programs, on the extended reals.

  One iteration adds to every row x of the activations a correction built from four projections P₀ … P₃ of that row.
  The fused kernel multiplies each projection by HOW MANY index words of that projection name the row, sums, and scales
  the sum by s; the reference adds s · Pₚ once for every index word that names the row. The two agree for every
  extended-real x and Pₚ when s is a nonnegative real: a count is a finite sum of ones, (∑ [c j] 1) · y = ∑ [c j] y
  because both summands of each step are nonnegative, and a nonnegative real factor distributes over any sum of
  extended reals. No finiteness of the data is used.

  Also here: the three scale factors 1, 1/2 and the single-precision neighbour of 1/3, as the reals their bit patterns
  denote, and that the zero pattern denotes 0.
-/
import Idealize.ShloMosaic.PureOps.Ideal

noncomputable section

open scoped BigOperators

namespace Cert.Spec

open Idealize.ShloMosaic

/-- A count times y is y added once per counted element. -/
theorem count_mul {ι : Type} (S : Finset ι) (c : ι → Prop) [DecidablePred c] (y : EReal) :
    (∑ j ∈ S, if c j then (1 : EReal) else 0) * y = ∑ j ∈ S, if c j then y else 0 := by
  classical
  induction S using Finset.induction_on with
  | empty => simp
  | insert a S ha ih =>
    have h0 : (0 : EReal) ≤ if c a then (1 : EReal) else 0 := by split_ifs <;> simp
    have h1 : (0 : EReal) ≤ ∑ j ∈ S, if c j then (1 : EReal) else 0 :=
      Finset.sum_nonneg fun j _ => by split_ifs <;> simp
    rw [Finset.sum_insert ha, Finset.sum_insert ha, EReal.right_distrib_of_nonneg h0 h1, ih]
    congr 1
    split_ifs <;> simp

/-- A nonnegative real scale of a count times y: the scaled y once per counted element. -/
theorem scale_count_mul {ι : Type} (S : Finset ι) (c : ι → Prop) [DecidablePred c] (s y : EReal) :
    s * ((∑ j ∈ S, if c j then (1 : EReal) else 0) * y) = ∑ j ∈ S, if c j then s * y else 0 := by
  rw [mul_left_comm, count_mul]

/-- THE LAW OF ONE ITERATION at one element: the kernel's scaled, count-weighted sum of the four projections is the
    reference's four accumulations of the scaled projections. -/
theorem iter_law {ι : Type} [Fintype ι] (s : ℝ) (hs : 0 ≤ s) (x P0 P1 P2 P3 : EReal)
    (c0 c1 c2 c3 : ι → Prop) [DecidablePred c0] [DecidablePred c1] [DecidablePred c2] [DecidablePred c3] :
    x + (s : EReal) * (((((0 : EReal) + (∑ j, if c0 j then (1 : EReal) else 0) * P0)
          + (∑ j, if c1 j then (1 : EReal) else 0) * P1)
          + (∑ j, if c2 j then (1 : EReal) else 0) * P2)
          + (∑ j, if c3 j then (1 : EReal) else 0) * P3)
      = x + (((((0 : EReal) + ∑ j, if c0 j then (s : EReal) * P0 else 0)
          + ∑ j, if c1 j then (s : EReal) * P1 else 0)
          + ∑ j, if c2 j then (s : EReal) * P2 else 0)
          + ∑ j, if c3 j then (s : EReal) * P3 else 0) := by
  have hs0 : (0 : EReal) ≤ (s : EReal) := by exact_mod_cast hs
  have hst : (s : EReal) ≠ ⊤ := EReal.coe_ne_top s
  rw [zero_add, zero_add, EReal.left_distrib_of_nonneg_of_ne_top hs0 hst, EReal.left_distrib_of_nonneg_of_ne_top hs0 hst,
    EReal.left_distrib_of_nonneg_of_ne_top hs0 hst, scale_count_mul, scale_count_mul, scale_count_mul, scale_count_mul]

/-! ## The constants -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_third : Ideal.ofBits .f32 0x3EAAAAAB#32 = ((11184811 / 33554432 : ℝ) : EReal) := by
  simp [Ideal.ofBits, Ideal.ieee, -EReal.coe_mul]; norm_num

end Cert.Spec

end
-- ==== Proof.Bridge.lean ====
/-
  The bridge between the two programs, at exact (extended-real) arithmetic.

  One launch of the fused kernel on the activations flattened to [65536, 512], reshaped back to [8, 8192, 512], is one
  iteration of the reference. At element (b, n, e) the kernel's value is
      u[b,n,e] + s · ((((0 + c₀ P₀) + c₁ P₁) + c₂ P₂) + c₃ P₃),   Pₚ = ∑_d u[b,n,d] · W[p,d,e],
  with cₚ the number of index words of projection p that read n: row 8192 b + n of the flattened array is (b, n) and
  reads row n of the count table, the change of the weights' format is the identity, and the two programs spell the
  normalized index words the same way. The reference's value is
      u[b,n,e] + ((((0 + ∑_j [word j of projection 0 reads n] s · P₀) + …) + …) + …).
  The two agree for a scale factor s that is a nonnegative real (the law of one iteration). The three scale factors of
  the three launches are 1, 1/2 and the single-precision neighbour of 1/3, so three launches are three iterations.
-/
import proofs.«173885_j49976239456835_2_alg».proof.Proof.KArgs
import proofs.«173885_j49976239456835_2_alg».proof.Proof.RefStep
import proofs.«173885_j49976239456835_2_alg».proof.Proof.Spec
import Idealize.ShloMosaic.Lib.Pipeline.Value
import Idealize.ShloMosaic.Lib.ValueIdx

noncomputable section

open scoped BigOperators

namespace Cert.Bridge

open Cert.KernelIdeal.Step Cert.KernelIdeal.KValue Cert.RefStep Idealize.ShloMosaic Idealize.ShloMosaic.ValueIdx

/-- The two programs spell the normalized index words of projection `k` the same way. -/
theorem words_eq (k : ℕ) (hk : Cert.KernelIdeal.S4x512x16.Slices ![k, 0, 0] Cert.KernelIdeal.S1x512x16) (hk' : Cert.ReferenceIdeal.S4x512x16.Slices ![k, 0, 0] Cert.ReferenceIdeal.S1x512x16) (g : IVec Cert.KernelIdeal.S4x512x16 32) :
    knorm (kflat k hk g) = norm1 (flat k hk' g) := rfl

/-- The reshape back to [8, 8192, 512] at `(b, n, e)` reads row `8192 b + n`: the same row-major position. -/
theorem R3_apply (z : FVec Ideal Cert.KernelIdeal.S65536x512 .f32) (b : Fin 8) (n : Fin 8192) (e : Fin 512) :
    R3 z (ix3 b n e) = z (ix2 (⟨b.val * 8192 + n.val, by omega⟩ : Fin 65536) e) := by
  refine shapeCast_apply _ _ _ (ix2 (⟨b.val * 8192 + n.val, by omega⟩ : Fin 65536) e) ?_
  rw [Shape.rowMajor_val_two, Shape.rowMajor_val_three]
  rfl

/-- The flattening to [65536, 512] at row `8192 b + n` reads `(b, n, ·)`. -/
theorem R2_apply (u : FVec Ideal Cert.KernelIdeal.S8x8192x512 .f32) (b : Fin 8) (n : Fin 8192) (d : Fin 512) :
    R2 u (ix2 (⟨b.val * 8192 + n.val, by omega⟩ : Fin 65536) d) = u (ix3 b n d) := by
  refine shapeCast_apply _ _ _ (ix3 b n d) ?_
  rw [Shape.rowMajor_val_two, Shape.rowMajor_val_three]
  rfl

/-- Row `8192 b + n` of the flattened activations reads row `n` of the count table. -/
theorem rowOf_flat (b : Fin 8) (n : Fin 8192) : rowOf ⟨b.val * 8192 + n.val, by omega⟩ = n := by
  refine Fin.ext ?_
  show (b.val * 8192 + n.val) % 8192 = n.val
  have := n.isLt
  omega

/-- One projection of row `8192 b + n` of the flattened activations is that projection of row `(b, n)`: the change
    of the weights' format is the identity. -/
theorem proj_eq (u : FVec Ideal Cert.KernelIdeal.S8x8192x512 .f32) (W : FVec Ideal Cert.KernelIdeal.S4x512x512 .f32)
    (b : Fin 8) (n : Fin 8192) (e : Fin 512) (p : Fin 4) :
    ∑ d : Fin 512, R2 u (ix2 (⟨b.val * 8192 + n.val, by omega⟩ : Fin 65536) d) * wbOf W (ix3 p d e)
      = ∑ d : Fin 512, u (ix3 b n d) * W (ix3 p d e) := by
  refine Finset.sum_congr rfl fun d _ => ?_
  rw [R2_apply]
  rfl

/-- The count table at `(n, 0)`: the number of words of projection 0 that read `n`, in the reference's spelling. -/
theorem ct_apply0 (g : IVec Cert.KernelIdeal.S4x512x16 32) (n : Fin 8192)
    (hk' : Cert.ReferenceIdeal.S4x512x16.Slices ![0, 0, 0] Cert.ReferenceIdeal.S1x512x16) :
    ctOf g (ix2 n 0) = ∑ j : Fin 8192, if (norm1 (flat 0 hk' g) (ix1 j)).toInt = (n.val : ℤ) then (1 : EReal) else 0 :=
  Cert.CountsRead.countsT_apply0 _ _ _ _ n

theorem ct_apply1 (g : IVec Cert.KernelIdeal.S4x512x16 32) (n : Fin 8192)
    (hk' : Cert.ReferenceIdeal.S4x512x16.Slices ![1, 0, 0] Cert.ReferenceIdeal.S1x512x16) :
    ctOf g (ix2 n 1) = ∑ j : Fin 8192, if (norm1 (flat 1 hk' g) (ix1 j)).toInt = (n.val : ℤ) then (1 : EReal) else 0 :=
  Cert.CountsRead.countsT_apply1 _ _ _ _ n

theorem ct_apply2 (g : IVec Cert.KernelIdeal.S4x512x16 32) (n : Fin 8192)
    (hk' : Cert.ReferenceIdeal.S4x512x16.Slices ![2, 0, 0] Cert.ReferenceIdeal.S1x512x16) :
    ctOf g (ix2 n 2) = ∑ j : Fin 8192, if (norm1 (flat 2 hk' g) (ix1 j)).toInt = (n.val : ℤ) then (1 : EReal) else 0 :=
  Cert.CountsRead.countsT_apply2 _ _ _ _ n

theorem ct_apply3 (g : IVec Cert.KernelIdeal.S4x512x16 32) (n : Fin 8192)
    (hk' : Cert.ReferenceIdeal.S4x512x16.Slices ![3, 0, 0] Cert.ReferenceIdeal.S1x512x16) :
    ctOf g (ix2 n 3) = ∑ j : Fin 8192, if (norm1 (flat 3 hk' g) (ix1 j)).toInt = (n.val : ℤ) then (1 : EReal) else 0 :=
  Cert.CountsRead.countsT_apply3 _ _ _ _ n

private theorem assemble {x x' s s' z c0 c0' c1 c1' c2 c2' c3 c3' P0 P0' P1 P1' P2 P2' P3 P3' : EReal}
    (hx : x = x') (hs : s = s') (hz : z = 0) (h0 : c0 = c0') (q0 : P0 = P0') (h1 : c1 = c1') (q1 : P1 = P1')
    (h2 : c2 = c2') (q2 : P2 = P2') (h3 : c3 = c3') (q3 : P3 = P3') :
    x + s * ((((z + c0 * P0) + c1 * P1) + c2 * P2) + c3 * P3)
      = x' + s' * (((((0 : EReal) + c0' * P0') + c1' * P1') + c2' * P2') + c3' * P3') := by
  rw [hx, hs, hz, h0, q0, h1, q1, h2, q2, h3, q3]

/-- One launch of the fused kernel on the flattened activations, reshaped back, is one iteration of the reference,
    for a scale factor that is a nonnegative real. -/
theorem bridge (s : BitVec 32) (r : ℝ) (hr : 0 ≤ r) (hsr : Ideal.ofBits .f32 s = ((r : ℝ) : EReal))
    (u : FVec Ideal Cert.KernelIdeal.S8x8192x512 .f32) (W : FVec Ideal Cert.KernelIdeal.S4x512x512 .f32) (g : IVec Cert.KernelIdeal.S4x512x16 32) :
    R3 (KIter s (R2 u) (wbOf W) (ctOf g)) = RefIter s u W g := by
  funext i
  obtain ⟨b, n, e, rfl⟩ : ∃ (b : Fin 8) (n : Fin 8192) (e : Fin 512), i = ix3 b n e := ⟨i 0, i 1, i 2, eq_ix3 i⟩
  refine (R3_apply _ b n e).trans ?_
  refine (KIter_apply _ _ _ _ _ e).trans ?_
  refine Eq.trans ?_ (refIter_apply s u W g b n e).symm
  unfold kAt
  rw [rowOf_flat b n, hsr]
  refine (assemble (R2_apply u b n e) rfl Cert.Spec.ofBits_zero
    (ct_apply0 g n Cert.ReferenceIdeal.Facts₀.slices_S4x512x16_S1x512x16_0_0_0) (proj_eq u W b n e 0)
    (ct_apply1 g n Cert.ReferenceIdeal.Facts₀.slices_S4x512x16_S1x512x16_1_0_0) (proj_eq u W b n e 1)
    (ct_apply2 g n Cert.ReferenceIdeal.Facts₀.slices_S4x512x16_S1x512x16_2_0_0) (proj_eq u W b n e 2)
    (ct_apply3 g n Cert.ReferenceIdeal.Facts₀.slices_S4x512x16_S1x512x16_3_0_0) (proj_eq u W b n e 3)).trans ?_
  exact Cert.Spec.iter_law r hr _ _ _ _ _ _ _ _ _

/-- The three launches (scale factors 1, 1/2 and the single-precision neighbour of 1/3) are the three iterations. -/
theorem bridge3 (u : FVec Ideal Cert.KernelIdeal.S8x8192x512 .f32) (W : FVec Ideal Cert.KernelIdeal.S4x512x512 .f32) (g : IVec Cert.KernelIdeal.S4x512x16 32) :
    R3 (KIter 0x3EAAAAAB#32 (KIter 0x3F000000#32 (KIter 0x3F800000#32 (R2 u) (wbOf W) (ctOf g)) (wbOf W) (ctOf g)) (wbOf W) (ctOf g))
      = RefIter 0x3EAAAAAB#32 (RefIter 0x3F000000#32 (RefIter 0x3F800000#32 u W g) W g) W g := by
  have h1 := bridge 0x3F800000#32 1 (by norm_num) Cert.Spec.ofBits_one u W g
  have e1 : KIter 0x3F800000#32 (R2 u) (wbOf W) (ctOf g) = R2 (RefIter 0x3F800000#32 u W g) :=
    (R2_R3 _).symm.trans (congrArg R2 h1)
  have h2 := bridge 0x3F000000#32 (1 / 2) (by norm_num) Cert.Spec.ofBits_half (RefIter 0x3F800000#32 u W g) W g
  have e2 : KIter 0x3F000000#32 (KIter 0x3F800000#32 (R2 u) (wbOf W) (ctOf g)) (wbOf W) (ctOf g)
      = R2 (RefIter 0x3F000000#32 (RefIter 0x3F800000#32 u W g) W g) :=
    (congrArg (fun v => KIter 0x3F000000#32 v (wbOf W) (ctOf g)) e1).trans ((R2_R3 _).symm.trans (congrArg R2 h2))
  have h3 := bridge 0x3EAAAAAB#32 (11184811 / 33554432) (by norm_num) Cert.Spec.ofBits_third
    (RefIter 0x3F000000#32 (RefIter 0x3F800000#32 u W g) W g) W g
  exact (congrArg (fun v => R3 (KIter 0x3EAAAAAB#32 v (wbOf W) (ctOf g))) e2).trans h3

end Cert.Bridge

end
-- ==== Proof.lean ====
/-
  The proof of Cert.Claim for a fused "gather, project, scatter-add" update iterated three times.

  THE TWO PROGRAMS. Activations x : [8, 8192, 512] (batch, particle, feature), four weight matrices W : [4, 512, 512] and
  index words groups : [4, 512, 16] naming particles. One iteration of the REFERENCE, for each projection p, gathers the
  rows of the current activations that the 8192 words of projection p name, multiplies each into W[p], scales by s, and
  scatter-adds the product back onto the row the same word names; the four corrections are accumulated from zero and
  added to the activations. The scales of the three iterations are 1, 1/2 and the single-precision neighbour of 1/3.
  The KERNEL program first counts, for each projection p and particle n, how many words of projection p name n, and then
  runs ONE fused launch per iteration over row tiles of the flattened activations [65536, 512]:
      out[r,:] = upd[r,:] + s · ∑_p count[p, r mod 8192] · (upd[r,:] · W[p]).

  WHY THEY AGREE on the extended reals. A word that lands on row n gathered row n (gather clamps, scatter drops, and where
  the scatter keeps a word the clamp did nothing), so the reference adds s · (u[b,n,:] · W[p]) to row n once per word of
  projection p naming n; a count is a sum of ones, a count times y is y added that many times (both summands
  nonnegative at every step), and a nonnegative real scale distributes over any sum of extended reals (Spec.lean). No
  finiteness of the inputs is used: the precondition is never opened. A change of float format is the identity, a matrix
  product into the zero accumulator is the plain sum over the contracted axis.

  THE MODULES. Spec: the algebra. KStep: the kernel body at an element; KRegion0/1/2: each launch's result array as one
  function of the arrays it finds (blocks to array); KArgs, CountsRead: the weights, the count table and the reshapes as
  functions of the arguments; KValue: the program's result through its seven segments; KRun: its run with the result
  named. ScatterReads, UpdateRead: the accumulating scatters, the gather and the product read at an index; RefStep: one
  iteration of the reference at an element; RefRun: the reference's generated run is three such iterations. Bridge: one
  launch reshaped is one iteration. Assemble: the five claims. The frames are the generated ones; the ideal pass rewrote
  nothing, so its conjunct is True.
-/
import proofs.«173885_j49976239456835_2_alg».proof.Defs
import proofs.«173885_j49976239456835_2_alg».proof.Proof.Assemble
import proofs.«173885_j49976239456835_2_alg».proof.Proof.KValue
import proofs.«173885_j49976239456835_2_alg».proof.Proof.Bridge
import Idealize.ShloMosaic.Adequacy
import Idealize.ShloMosaic.Init

noncomputable section

namespace Cert.Proof

theorem claim : Cert.Claim :=
  Cert.Assemble.claim_of Cert.KernelIdeal.KValue.W7_result Cert.Bridge.bridge3

end Cert.Proof

end
